-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S400x10000 : Shape := ⟨2, ![400, 10000]⟩
abbrev S400x512 : Shape := ⟨2, ![400, 512]⟩

abbrev nBuf : Space → Nat
  | .hbm => 11
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .bf16⟩
  | .hbm, ⟨7, _⟩ => ⟨S512x512, .bf16⟩
  | .hbm, ⟨8, _⟩ => ⟨S1x512, .f32⟩
  | .hbm, ⟨9, _⟩ => ⟨S1x512, .f32⟩
  | .hbm, ⟨10, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S400x10000, .f32⟩
  | .local _ .vmem, ⟨3, _⟩ => ⟨S400x10000, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S400x512, .f32⟩
  | .local _ .vmem, ⟨9, _⟩ => ⟨S400x512, .f32⟩
  | .local _ .vmem, ⟨10, _⟩ => ⟨S10000x512, .bf16⟩
  | .local _ .vmem, ⟨11, _⟩ => ⟨S10000x512, .bf16⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![60], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1000_i32 : BitVec 32 := 1000#32
  let v17 : BitVec 32 := Scalar.muli arg0 c1000_i32
  let v18 : Index := Scalar.indexCast v17
  let c0_7 : Index := 0#32
  ![v18.toNat, 0]
def k0_cond2 (i : grid0.Coords) : BitVec 1 :=
  let arg0 : BitVec 32 := BitVec.ofNat 32 (i 0).val
  let c10_i32_0 : BitVec 32 := 10#32
  let v3 : BitVec 1 := Scalar.cmpi .sge arg0 c10_i32_0
  let c35_i32 : BitVec 32 := 35#32
  let v4 : BitVec 1 := Scalar.cmpi .slt arg0 c35_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c10_i32_4 : BitVec 32 := 10#32
  let v11 : BitVec 32 := Scalar.subi arg0 c10_i32_4
  let c400_i32 : BitVec 32 := 400#32
  let v27 : BitVec 32 := Scalar.muli v11 c400_i32
  let v28 : Index := Scalar.indexCast v27
  let c0_14 : Index := 0#32
  ![v28.toNat, 0]
def k0_cond3 (i : grid0.Coords) : BitVec 1 :=
  let arg0 : BitVec 32 := BitVec.ofNat 32 (i 0).val
  let c35_i32_2 : BitVec 32 := 35#32
  let v8 : BitVec 1 := Scalar.cmpi .sge arg0 c35_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c10_i32 : BitVec 32 := 10#32
  let v0 : BitVec 1 := Scalar.cmpi .slt arg0 c10_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c10_i32 : BitVec 32 := 10#32
  let v0 : BitVec 1 := Scalar.cmpi .slt arg0 c10_i32
  let c35_i32 : BitVec 32 := 35#32
  let v1 : BitVec 1 := Scalar.cmpi .slt arg0 c35_i32
  let c10_i32_0 : BitVec 32 := 10#32
  let v2 : BitVec 32 := Scalar.subi arg0 c10_i32_0
  let c10_i32_1 : BitVec 32 := 10#32
  let v3 : BitVec 32 := Scalar.subi arg0 c10_i32_1
  let c25_i32 : BitVec 32 := 25#32
  let v4 : BitVec 32 := Scalar.subi v3 c25_i32
  let v5 : BitVec 32 := Scalar.select v1 v2 v4
  let c0_i32 : BitVec 32 := 0#32
  let v6 : BitVec 32 := Scalar.select v0 c0_i32 v5
  let c0_i32_2 : BitVec 32 := 0#32
  let c0_i32_3 : BitVec 32 := 0#32
  ![v6.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c35_i32 : BitVec 32 := 35#32
  let v0 : BitVec 1 := Scalar.cmpi .slt arg0 c35_i32
  let c10_i32 : BitVec 32 := 10#32
  let v1 : BitVec 32 := Scalar.subi arg0 c10_i32
  let c25_i32 : BitVec 32 := 25#32
  let v2 : BitVec 32 := Scalar.subi v1 c25_i32
  let c0_i32 : BitVec 32 := 0#32
  let v3 : BitVec 32 := Scalar.select v0 c0_i32 v2
  let c0_i32_0 : BitVec 32 := 0#32
  let c0_i32_1 : BitVec 32 := 0#32
  ![v3.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1000x512_S1000x512 : S1000x512.ShapeCasts S1000x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  h_S400x512 : 0 < S400x512.numel
  shapeCasts_S400x512_S400x512 : S400x512.ShapeCasts S400x512
  inb_S400x512_S400x512_0_0 : ∀ a, (![0, 0] : Fin 2 → Nat) a + S400x512.size a ≤ S400x512.size a
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  hrank0 : 0 < grid0.rank
  k0_off1_inb : ∀ i : grid0.Coords, ∀ (k0_h1 : k0_cond1 i = 1#1), ∀ a, (k0_off1 i) a + S1000x512.size a ≤ S10000x512.size a
  k0_off1_packedbf16 : ∀ i : grid0.Coords, ∀ (k0_h1 : k0_cond1 i = 1#1), (Rect.unit (s := S10000x512) (k0_off1 i) S1000x512.size (k0_off1_inb i k0_h1)).PackedRows (EltTy.packing .bf16)
  k0_off2_inb : ∀ i : grid0.Coords, ∀ (k0_h2 : k0_cond2 i = 1#1), ∀ a, (k0_off2 i) a + S400x512.size a ≤ S10000x512.size a
  k0_off2_packedbf16 : ∀ i : grid0.Coords, ∀ (k0_h2 : k0_cond2 i = 1#1), (Rect.unit (s := S10000x512) (k0_off2 i) S400x512.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x512.size a ≤ S10000x512.size a
  hwx0_6 : ∀ i : grid0.Coords, EltTy.bits .f32 = 32 ∨ (Rect.block (s := S10000x512) S400x512.size (cc0_transform_6 i) (hinb0_6 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x512, .f32⟩
  | .hbm, ⟨15, _⟩ => ⟨S10000x512, .f32⟩
  | .hbm, ⟨16, _⟩ => ⟨S1x512, .f32⟩
  | .hbm, ⟨17, _⟩ => ⟨S10000x512, .f32⟩
  | .hbm, ⟨18, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LibStoreRead.lean ====
/-
  One unit-stride store read back, stated without naming the new contents as a function.

  After a buffer holding `X` is stored into through the box of extents `size` at offsets `off` with payload `w`,
  the new contents `X'` are characterised by two facts: an index that sits at position `x` of the box reads `w x`,
  and an index that misses the box on some axis reads what `X` held. `Overwrites` is that pair of facts;
  `overwrites_read_writes` proves it of what a whole memref reads after one store. The two remaining lemmas are the
  degenerate cases used beside it: a load of the whole shape reads the contents, and a store of the whole shape leaves
  its payload.
-/
import Idealize.ShloMosaic.Lib.WritesUnit
import Idealize.ShloMosaic.Lib.WholeRead
import Idealize.ShloMosaic.Lib.Pipeline.Value

namespace Cert.LibStoreRead

open Idealize.ShloMosaic

variable {sig : RefSig} {κ : Kind} {sp : Space} {s : Shape} {e : EltTy} {Val : EltTy → Type}

/-- `X'` is `X` with the unit-stride box of extents `size` at offsets `off` overwritten by `w`: inside the box the
    payload at the index minus the offsets, outside it (missing on some axis) the old contents. -/
def Overwrites (off size : Fin s.rank → ℕ) (inb : ∀ a, off a + size a ≤ s.size a) (X X' : s.Idx → Val e)
    (w : (Rect.unit off size inb).shape.Idx → Val e) : Prop :=
  (∀ (y : s.Idx) (x : (Rect.unit off size inb).shape.Idx), (∀ a, (y a).val = off a + (x a).val) → X' y = w x) ∧
  (∀ (y : s.Idx) (a : Fin s.rank), ((y a).val < off a ∨ off a + size a ≤ (y a).val) → X' y = X y)

/-- What a whole memref held at the contents reading `X` reads after ONE store through a unit-stride box. -/
theorem overwrites_read_writes {m : Memref sig κ sp s e} (h : m.IsWhole) (X : s.Idx → Val e)
    (off size : Fin s.rank → ℕ) (inb : ∀ a, off a + size a ≤ s.size a) (w : (Rect.unit off size inb).shape.Idx → Val e) :
    Overwrites off size inb X
      (m.view.read Val (m.view.writes Val (h.unread X) [(⟨Rect.unit off size inb, w⟩ : View.Piece Val s e)])) w :=
  ⟨fun y x hx => View.read_writes_cons_unit_of_mem m.view (h.unread X) inb w [] y x rfl hx,
   fun y a ha => (View.read_writes_cons_unit_of_not_mem m.view (h.unread X) inb w [] y rfl a ha).trans
      (by rw [View.writes_nil, h.read_unread])⟩

/-- A load of the whole shape (offsets zero, however the zeros are spelt) through a whole memref reads its contents. -/
theorem load_whole {m : Memref sig κ sp s e} (h : m.IsWhole) (X : s.Idx → Val e) {off : Fin s.rank → ℕ}
    (hz : off = fun _ => 0) (inb : ∀ a, off a + s.size a ≤ s.size a) :
    View.readAt Val m.view (Rect.unit off s.size inb).toLoadRect (h.unread X) = X := by
  rw [View.readAt_eq_ld, h.read_unread, View.ld_unit_zero hz]

/-- ONE store of the whole shape leaves its payload, whatever the buffer held. -/
theorem read_store_whole (v : View sig κ sp s e) (f : v.ty.Contents Val) {off : Fin s.rank → ℕ}
    (hz : off = fun _ => 0) (inb : ∀ a, off a + s.size a ≤ s.size a) (w : (Rect.unit off s.size inb).shape.Idx → Val e) :
    v.read Val (v.writes Val f [(⟨Rect.unit off s.size inb, w⟩ : View.Piece Val s e)]) = w := by
  subst hz; funext y
  exact View.read_writes_cons_unit_of_mem v f inb w [] y y rfl (fun a => (Nat.zero_add _).symm)

/-- The zero offsets of a rank-2 access as the printed programs spell them. -/
theorem zeros2 : (![0, 0] : Fin 2 → ℕ) = fun _ => 0 := funext fun a => by fin_cases a <;> rfl

end Cert.LibStoreRead
-- ==== Proof.KernelRuns.lean ====
/-
  The kernel body at one grid point, in each of its three phases, as a separation-logic triple on whole memrefs.

  The body is three guarded blocks and at every grid point exactly one guard holds.  In the first phase it multiplies
  the point's block of x by W1 and stores the product into one 1000-row slice of the first scratch; in the second it
  multiplies the point's block of adj by the whole first scratch, adds the bias, clamps at zero, multiplies by W2 and
  stores into one 400-row slice of the second scratch; in the third it multiplies the point's block of adj by the whole
  second scratch, adds the second bias and stores the whole output block.  Each triple names what the one stored
  buffer holds afterwards as the read-back of a single store over what it held before, with the payload a function of
  the contents the inputs were handed at; every other buffer it mentions is returned as it was found.
-/
import proofs.«179229_g29197187678275_cont_9to1_429_16_alg».proof.Proof.Gen.Kernel.Frame
import proofs.«179229_g29197187678275_cont_9to1_429_16_alg».proof.Proof.Gen.Kernel.Skeleton
import proofs.«179229_g29197187678275_cont_9to1_429_16_alg».proof.Proof.LibStoreRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStoreRead

variable {F : FTy → Type} [FloatOps F]

local notation "𝕄" => MT nD τ sig Unit (Elt F) ℕ (UR sig nD τ) ℕ

/-- What a whole memref that held `X` reads after one store of `w` through the unit-stride box of extents `size` at
    offsets `off`. -/
def stored {s : Shape} {e : EltTy} (m : Memref sig .tc .vmem s e) (h : m.IsWhole) (X : s.Idx → Elt F e)
    (off size : Fin s.rank → ℕ) (inb : ∀ a, off a + size a ≤ s.size a) (w : (Rect.unit off size inb).shape.Idx → Elt F e) : s.Idx → Elt F e :=
  m.view.read (Elt F) (m.view.writes (Elt F) (h.unread X) [(⟨Rect.unit off size inb, w⟩ : View.Piece (Elt F) s e)])

/-- It is `X` overwritten by `w` on the box. -/
theorem stored_overwrites {s : Shape} {e : EltTy} (m : Memref sig .tc .vmem s e) (h : m.IsWhole) (X : s.Idx → Elt F e)
    (off size : Fin s.rank → ℕ) (inb : ∀ a, off a + size a ≤ s.size a) (w : (Rect.unit off size inb).shape.Idx → Elt F e) :
    Overwrites off size inb X (stored m h X off size inb w) w :=
  overwrites_read_writes h X off size inb w

set_option maxHeartbeats 1000000 in
/-- First phase: the product of the x block and W1 lands in the first scratch's slice at the point's offsets. -/
theorem run_first (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : k0_cond1 i = 1#1) (hc2 : ¬ k0_cond2 i = 1#1) (hc3 : ¬ k0_cond3 i = 1#1)
    (x0 : Vec F S1000x512 .f32) (w1 : Vec F S512x512 .bf16) (s1 : Vec F S10000x512 .bf16) (E : Set ℕ) (K : PUnit → sProp 𝕄) :
    iprop(owns (c : Thread nD τ) arg1 fullShare x0 ∗ owns (c : Thread nD τ) arg3 fullShare w1 ∗ owns (c : Thread nD τ) arg8 fullShare s1
        ∗ (iprop(owns (c : Thread nD τ) arg1 fullShare x0 ∗ owns (c : Thread nD τ) arg3 fullShare w1
            ∗ owns (c : Thread nD τ) arg8 fullShare (stored arg8 harg8 s1 (k0_off1 i) S1000x512.size (k0_off1_inb i hc1) (k0_pay1 x0 w1))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e0 := load_whole (Val := Elt F) harg1 x0 zeros2 inb_S1000x512_S1000x512_0_0
  have e3 := load_whole (Val := Elt F) harg3 w1 zeros2 inb_S512x512_S512x512_0_0
  simp only [cc0__gcn_kernel_eq_skeleton]; unfold cc0__gcn_kernel_skel
  unfold stored owns
  iintro ⟨⟨%f0, %hf0, H0⟩, ⟨%f3, %hf3, H3⟩, ⟨%fs, %hfs, HS⟩, Hk⟩
  obtain rfl := harg1.eq_unread hf0; obtain rfl := harg3.eq_unread hf3; obtain rfl := harg8.eq_unread hfs
  sl_exec (disch := first | exact hc1 | exact hc2 | exact hc3)
  sl_step
  iapply Hk
  isplitl [H0]
  · iexists _; isplitr; · ipureintro; exact harg1.read_unread _
    iexact H0
  isplitl [H3]
  · iexists _; isplitr; · ipureintro; exact harg3.read_unread _
    iexact H3
  iexists _; isplitr
  swap; · iexact HS
  ipureintro; first | rfl | (rw [e0, e3])

set_option maxHeartbeats 1000000 in
/-- Second phase: the adj block times the whole first scratch, biased, clamped at zero and multiplied by W2, lands in
    the second scratch's slice at the point's offsets; the first scratch is only read. -/
theorem run_second (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : ¬ k0_cond1 i = 1#1) (hc2 : k0_cond2 i = 1#1) (hc3 : ¬ k0_cond3 i = 1#1)
    (a : Vec F S400x10000 .f32) (w2 : Vec F S512x512 .bf16) (b : Vec F S1x512 .f32)
    (s1 s2 : Vec F S10000x512 .bf16) (E : Set ℕ) (K : PUnit → sProp 𝕄) :
    iprop(owns (c : Thread nD τ) arg2 fullShare a ∗ owns (c : Thread nD τ) arg4 fullShare w2 ∗ owns (c : Thread nD τ) arg5 fullShare b
        ∗ owns (c : Thread nD τ) arg8 fullShare s1 ∗ owns (c : Thread nD τ) arg9 fullShare s2
        ∗ (iprop(owns (c : Thread nD τ) arg2 fullShare a ∗ owns (c : Thread nD τ) arg4 fullShare w2 ∗ owns (c : Thread nD τ) arg5 fullShare b
            ∗ owns (c : Thread nD τ) arg8 fullShare s1
            ∗ owns (c : Thread nD τ) arg9 fullShare (stored arg9 harg9 s2 (k0_off2 i) S400x512.size (k0_off2_inb i hc2) (k0_pay2 a s1 b w2))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e2 := load_whole (Val := Elt F) harg2 a zeros2 inb_S400x10000_S400x10000_0_0
  have e4 := load_whole (Val := Elt F) harg4 w2 zeros2 inb_S512x512_S512x512_0_0
  have e5 := load_whole (Val := Elt F) harg5 b zeros2 inb_S1x512_S1x512_0_0
  have e8 := load_whole (Val := Elt F) harg8 s1 zeros2 inb_S10000x512_S10000x512_0_0
  simp only [cc0__gcn_kernel_eq_skeleton]; unfold cc0__gcn_kernel_skel
  unfold stored owns
  iintro ⟨⟨%f2, %hf2, H2⟩, ⟨%f4, %hf4, H4⟩, ⟨%f5, %hf5, H5⟩, ⟨%f8, %hf8, H8⟩, ⟨%f9, %hf9, H9⟩, Hk⟩
  obtain rfl := harg2.eq_unread hf2; obtain rfl := harg4.eq_unread hf4; obtain rfl := harg5.eq_unread hf5
  obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr
  swap; · iexact H9
  ipureintro; first | rfl | (rw [e2, e4, e5, e8])

set_option maxHeartbeats 1000000 in
/-- Third phase: the adj block times the whole second scratch plus the second bias is stored over the whole output
    block, whatever that buffer held; both scratch buffers are left as found. -/
theorem run_third (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : ¬ k0_cond1 i = 1#1) (hc2 : ¬ k0_cond2 i = 1#1) (hc3 : k0_cond3 i = 1#1)
    (a : Vec F S400x10000 .f32) (b : Vec F S1x512 .f32) (d : Vec F S400x512 .f32)
    (s2 : Vec F S10000x512 .bf16) (E : Set ℕ) (K : PUnit → sProp 𝕄) :
    iprop(owns (c : Thread nD τ) arg2 fullShare a ∗ owns (c : Thread nD τ) arg6 fullShare b ∗ owns (c : Thread nD τ) arg7 fullShare d
        ∗ owns (c : Thread nD τ) arg9 fullShare s2
        ∗ (iprop(owns (c : Thread nD τ) arg2 fullShare a ∗ owns (c : Thread nD τ) arg6 fullShare b
            ∗ owns (c : Thread nD τ) arg7 fullShare (k0_pay3 a s2 b)
            ∗ owns (c : Thread nD τ) arg9 fullShare s2) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e2 := load_whole (Val := Elt F) harg2 a zeros2 inb_S400x10000_S400x10000_0_0
  have e6 := load_whole (Val := Elt F) harg6 b zeros2 inb_S1x512_S1x512_0_0
  have e9 := load_whole (Val := Elt F) harg9 s2 zeros2 inb_S10000x512_S10000x512_0_0
  simp only [cc0__gcn_kernel_eq_skeleton]; unfold cc0__gcn_kernel_skel
  unfold owns
  iintro ⟨⟨%f2, %hf2, H2⟩, ⟨%f6, %hf6, H6⟩, ⟨%f7, %hf7, H7⟩, ⟨%f9, %hf9, H9⟩, Hk⟩
  obtain rfl := harg2.eq_unread hf2; obtain rfl := harg6.eq_unread hf6; obtain rfl := harg7.eq_unread hf7
  obtain rfl := harg9.eq_unread hf9
  sl_exec (disch := first | exact hc1 | exact hc2 | exact hc3)
  sl_step
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr
    swap; · iexact H7
    ipureintro; (try rw [e2, e6, e9])
    exact read_store_whole (Val := Elt F) arg7.view _ zeros2 inb_S400x512_S400x512_0_0 _
  iexists _; isplitr; · ipureintro; exact harg9.read_unread _
  iexact H9

end Cert.Kernel.Body

end
-- ==== Proof.KernelSpec.lean ====
/-
  What the two scratch buffers hold from point to point, in closed form.

  The first scratch is filled in ten slices of 1000 rows: row r of it ends as row (r mod 1000) of the product of the
  (r / 1000)-th block of x with W1.  The second scratch is filled in twenty-five slices of 400 rows at the points 10 to
  34: row r of it ends as row (r mod 400) of what the second phase computes from the (r / 400)-th block of adj and the
  whole first scratch.  The invariant before point n says that the rows already stored hold these values; rows not
  yet stored are unconstrained.  One store of a slice extends the filled rows by that slice and leaves the rows below
  it alone, because they miss the stored box on the row axis.
-/
import proofs.«179229_g29197187678275_cont_9to1_429_16_alg».proof.Proof.KernelRuns
import Idealize.ShloMosaic.Lib.ValueIdx

set_option maxRecDepth 16384

noncomputable section

namespace Cert.Kernel.Body

open Idealize.ShloMosaic Idealize.ShloMosaic.TcCoe Idealize.ShloMosaic.ValueIdx
open Idealize.SL Idealize.SL.Sem
open Cert.Kernel Cert.Kernel.Gen Cert.LibStoreRead

variable {F : FTy → Type} [FloatOps F]

variable (m : (ℓ : Loc nD τ sig) → Buf (Elt F) ℓ)

/-- The block of x the pipeline stages at point `t`. -/
def xblk (c : Dev nD) (t : Fin cfg0.N) : Vec F S1000x512 .f32 := iblk m c 0 t
/-- The block of adj staged at point `t`. -/
def ablk (c : Dev nD) (t : Fin cfg0.N) : Vec F S400x10000 .f32 := iblk m c 1 t
/-- The (one) block of the narrowed W1. -/
def w1blk (c : Dev nD) (t : Fin cfg0.N) : Vec F S512x512 .bf16 := iblk m c 2 t
/-- The (one) block of the narrowed W2. -/
def w2blk (c : Dev nD) (t : Fin cfg0.N) : Vec F S512x512 .bf16 := iblk m c 3 t
/-- The (one) block of the first bias as a row. -/
def b1blk (c : Dev nD) (t : Fin cfg0.N) : Vec F S1x512 .f32 := iblk m c 4 t
/-- The (one) block of the second bias as a row. -/
def b2blk (c : Dev nD) (t : Fin cfg0.N) : Vec F S1x512 .f32 := iblk m c 5 t

/-- The point of the first phase that stores row `y 0` of the first scratch. -/
def ptFirst (y : S10000x512.Idx) : Fin cfg0.N :=
  ⟨(y 0).val / 1000, lt_of_lt_of_eq (by have := idx2_lt0 y; omega) N_0.symm⟩
/-- The point of the second phase that stores row `y 0` of the second scratch. -/
def ptSecond (y : S10000x512.Idx) : Fin cfg0.N :=
  ⟨10 + (y 0).val / 400, lt_of_lt_of_eq (by have := idx2_lt0 y; omega) N_0.symm⟩
/-- Where an index of a scratch sits inside its 1000-row slice. -/
def inFirst (y : S10000x512.Idx) : S1000x512.Idx :=
  ix2 ⟨(y 0).val % 1000, Nat.mod_lt _ (by decide)⟩ ⟨(y 1).val, idx2_lt1 y⟩
/-- Where an index of a scratch sits inside its 400-row slice. -/
def inSecond (y : S10000x512.Idx) : S400x512.Idx :=
  ix2 ⟨(y 0).val % 400, Nat.mod_lt _ (by decide)⟩ ⟨(y 1).val, idx2_lt1 y⟩

/-- The first scratch once the first phase is over. -/
def S1spec (c : Dev nD) : Vec F S10000x512 .bf16 :=
  fun y => k0_pay1 (xblk m c (ptFirst y)) (w1blk m c (ptFirst y)) (inFirst y)
/-- The second scratch once the second phase is over. -/
def HWspec (c : Dev nD) : Vec F S10000x512 .bf16 :=
  fun y => k0_pay2 (ablk m c (ptSecond y)) (S1spec m c) (b1blk m c (ptSecond y)) (w2blk m c (ptSecond y)) (inSecond y)
/-- The output block a point of the third phase stores. -/
def outAt (c : Dev nD) (t : Fin cfg0.N) : Vec F S400x512 .f32 :=
  k0_pay3 (ablk m c t) (HWspec m c) (b2blk m c t)

/-- Before point `n`: the rows of the first scratch stored so far (the first 1000 · min n 10) and those of the
    second (the first 400 · (min n 35 − 10)) hold their final values. -/
def Inv (c : Dev nD) (n : ℕ) (s1 s2 : Vec F S10000x512 .bf16) : Prop :=
  (∀ y : S10000x512.Idx, (y 0).val < 1000 * min n 10 → s1 y = S1spec m c y) ∧
  (∀ y : S10000x512.Idx, (y 0).val < 400 * (min n 35 - 10) → s2 y = HWspec m c y)

/-- Nothing is claimed before the first point. -/
theorem inv_zero (c : Dev nD) (s1 s2 : Vec F S10000x512 .bf16) : Inv m c 0 s1 s2 :=
  ⟨fun y hy => absurd hy (by simp), fun y hy => absurd hy (by simp)⟩

/-- A point of the first phase stores its slice of the first scratch. -/
theorem inv_first (c : Dev nD) (t : Fin cfg0.N) (ht : t.val < 10) (off : Fin 2 → ℕ) (hoff : off = ![1000 * t.val, 0])
    (inb : ∀ a, off a + S1000x512.size a ≤ S10000x512.size a) (s1 s1' s2 : Vec F S10000x512 .bf16)
    (hO : Overwrites (s := S10000x512) (e := EltTy.bf16) (Val := Elt F) off S1000x512.size inb s1 s1' (k0_pay1 (xblk m c t) (w1blk m c t)))
    (hI : Inv m c t.val s1 s2) : Inv m c (t.val + 1) s1' s2 := by
  subst hoff
  have hm : min t.val 10 = t.val := by omega
  have hm' : min (t.val + 1) 10 = t.val + 1 := by omega
  have hz : min t.val 35 - 10 = 0 := by omega
  have hz' : min (t.val + 1) 35 - 10 = 0 := by omega
  refine ⟨fun y hy => ?_, fun y hy => ?_⟩
  · rw [hm'] at hy
    by_cases h : (y 0).val < 1000 * t.val
    · rw [hO.2 y 0 (Or.inl h)]
      exact hI.1 y (by rw [hm]; exact h)
    · have hp : ptFirst y = t := Fin.ext (show (y 0).val / 1000 = t.val by omega)
      rw [hO.1 y (inFirst y) (fun a => by
        match a with
        | ⟨0, _⟩ => show (y 0).val = 1000 * t.val + (y 0).val % 1000; omega
        | ⟨1, _⟩ => show (y 1).val = 0 + (y 1).val; omega)]
      show _ = k0_pay1 (xblk m c (ptFirst y)) (w1blk m c (ptFirst y)) (inFirst y)
      rw [hp]
  · rw [hz'] at hy; exact absurd hy (by omega)

/-- A point of the second phase stores its slice of the second scratch, computed from the whole first scratch. -/
theorem inv_second (c : Dev nD) (t : Fin cfg0.N) (h10 : 10 ≤ t.val) (h35 : t.val < 35) (off : Fin 2 → ℕ)
    (hoff : off = ![400 * (t.val - 10), 0])
    (inb : ∀ a, off a + S400x512.size a ≤ S10000x512.size a) (s1 s2 s2' : Vec F S10000x512 .bf16)
    (hO : Overwrites (s := S10000x512) (e := EltTy.bf16) (Val := Elt F) off S400x512.size inb s2 s2' (k0_pay2 (ablk m c t) s1 (b1blk m c t) (w2blk m c t)))
    (hI : Inv m c t.val s1 s2) : Inv m c (t.val + 1) s1 s2' := by
  subst hoff
  have hm : min t.val 10 = 10 := by omega
  have hm' : min (t.val + 1) 10 = 10 := by omega
  have hz : min t.val 35 - 10 = t.val - 10 := by omega
  have hz' : min (t.val + 1) 35 - 10 = t.val + 1 - 10 := by omega
  have hs1 : s1 = S1spec m c := funext fun y => hI.1 y (by rw [hm]; have := idx2_lt0 y; omega)
  subst hs1
  refine ⟨fun y hy => hI.1 y (by rw [hm]; rw [hm'] at hy; exact hy), fun y hy => ?_⟩
  rw [hz'] at hy
  by_cases h : (y 0).val < 400 * (t.val - 10)
  · rw [hO.2 y 0 (Or.inl h)]
    exact hI.2 y (by rw [hz]; exact h)
  · have hp : ptSecond y = t := Fin.ext (show 10 + (y 0).val / 400 = t.val by omega)
    rw [hO.1 y (inSecond y) (fun a => by
      match a with
      | ⟨0, _⟩ => show (y 0).val = 400 * (t.val - 10) + (y 0).val % 400; omega
      | ⟨1, _⟩ => show (y 1).val = 0 + (y 1).val; omega)]
    show _ = k0_pay2 (ablk m c (ptSecond y)) (S1spec m c) (b1blk m c (ptSecond y)) (w2blk m c (ptSecond y)) (inSecond y)
    rw [hp]

/-- A point of the third phase finds the second scratch complete and changes neither scratch. -/
theorem inv_third (c : Dev nD) (t : Fin cfg0.N) (h35 : 35 ≤ t.val) (s1 s2 : Vec F S10000x512 .bf16)
    (hI : Inv m c t.val s1 s2) : s2 = HWspec m c ∧ Inv m c (t.val + 1) s1 s2 := by
  have hm : min t.val 10 = 10 := by omega
  have hm' : min (t.val + 1) 10 = 10 := by omega
  have hz : min t.val 35 - 10 = 25 := by omega
  have hz' : min (t.val + 1) 35 - 10 = 25 := by omega
  refine ⟨funext fun y => hI.2 y (by rw [hz]; have := idx2_lt0 y; omega), fun y hy => hI.1 y ?_, fun y hy => hI.2 y ?_⟩
  · rw [hm]; rw [hm'] at hy; exact hy
  · rw [hz]; rw [hz'] at hy; exact hy

end Cert.Kernel.Body

end
-- ==== Proof.KernelBody.lean ====
/-
  The pipeline's proof data and the body obligation at every grid point.

  The grid has sixty points and each guard of the body is a range of them: the first phase is the points below 10, the
  second the points from 10 to 34, the third the points from 35 on; the first phase stores at row offset 1000 · t and
  the second at 400 · (t − 10).  The region invariant holds the two scratch buffers at SOME contents satisfying the
  closed-form invariant for the point; every input's staging buffer holds its block at every point, and the output's
  buffer, untouched and not written back before point 35, holds from then on what the third phase computes from the
  complete second scratch.  At each point the case's triple runs the body, and the invariant's step lemma carries it
  to the next point.
-/
import proofs.«179229_g29197187678275_cont_9to1_429_16_alg».proof.Proof.KernelSpec

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibStoreRead

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards, the offsets and the output window's schedule, over the sixty points -/

theorem hcond1 : ∀ t : Fin cfg0.N, k0_cond1 (grid0.coords t) = 1#1 ↔ t.val < 10 :=
  (by decide +kernel : ∀ t : Fin grid0.N, k0_cond1 (grid0.coords t) = 1#1 ↔ t.val < 10)
theorem hcond2 : ∀ t : Fin cfg0.N, k0_cond2 (grid0.coords t) = 1#1 ↔ (10 ≤ t.val ∧ t.val < 35) :=
  (by decide +kernel : ∀ t : Fin grid0.N, k0_cond2 (grid0.coords t) = 1#1 ↔ (10 ≤ t.val ∧ t.val < 35))
theorem hcond3 : ∀ t : Fin cfg0.N, k0_cond3 (grid0.coords t) = 1#1 ↔ 35 ≤ t.val :=
  (by decide +kernel : ∀ t : Fin grid0.N, k0_cond3 (grid0.coords t) = 1#1 ↔ 35 ≤ t.val)
theorem hoff1 : ∀ t : Fin cfg0.N, t.val < 10 → k0_off1 (grid0.coords t) = ![1000 * t.val, 0] :=
  (by decide +kernel : ∀ t : Fin grid0.N, t.val < 10 → k0_off1 (grid0.coords t) = ![1000 * t.val, 0])
theorem hoff2 : ∀ t : Fin cfg0.N, 10 ≤ t.val → t.val < 35 → k0_off2 (grid0.coords t) = ![400 * (t.val - 10), 0] :=
  (by decide +kernel : ∀ t : Fin grid0.N, 10 ≤ t.val → t.val < 35 → k0_off2 (grid0.coords t) = ![400 * (t.val - 10), 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before point 35 the output window is idle and is not written back; from 35 on it is live. -/
theorem idle6 : ∀ t : Fin cfg0.N, t.val < 35 → cfg0.idle 6 (grid0.coords t) = true := by decide +kernel
theorem noFlush6 : ∀ t : Fin cfg0.N, t.val < 35 → (cfg0.win 6).flush t = false := by decide +kernel
theorem live6 : ∀ t : Fin cfg0.N, 35 ≤ t.val → cfg0.idle 6 (grid0.coords t) = false := by decide +kernel

/-! ## The staging and scratch memrefs -/

abbrev ms0 (t : Fin cfg0.N) : Memref sig .tc .vmem S1000x512 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S512x512 .bf16 := win0_2.stage (cfg0.slots t 2)
abbrev ms3 (t : Fin cfg0.N) : Memref sig .tc .vmem S512x512 .bf16 := win0_3.stage (cfg0.slots t 3)
abbrev ms4 (t : Fin cfg0.N) : Memref sig .tc .vmem S1x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S400x512 .f32 := win0_6.stage (cfg0.slots t 6)
abbrev scM0 : Memref sig .tc .vmem S10000x512 .bf16 := Memref.whole cc0_scratch0
abbrev scM1 : Memref sig .tc .vmem S10000x512 .bf16 := Memref.whole cc0_scratch1

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before point `n`. -/
def PhiS (c : Dev nD) (n : ℕ) : sProp 𝕄 :=
  iprop(∃ s1 s2, owns (c : Thread nD τ) scM0 fullShare s1 ∗ owns (c : Thread nD τ) scM1 fullShare s2 ∗ ⌜Inv m c n s1 s2⌝ ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]
theorem leaves_in4 (c : Dev nD) (t : Fin cfg0.N) : (dats m 0 c).leavesExact 4 t = owns (c : Thread nD τ) (ms4 t) fullShare (iblk m c 4 t) := by
  unfold Dat.leavesExact; rw [live4 t, after4]
theorem leaves_in5 (c : Dev nD) (t : Fin cfg0.N) : (dats m 0 c).leavesExact 5 t = owns (c : Thread nD τ) (ms5 t) fullShare (iblk m c 5 t) := by
  unfold Dat.leavesExact; rw [live5 t, after5]
theorem leaves_out_live (c : Dev nD) (t : Fin cfg0.N) (h : 35 ≤ t.val) : (dats m 0 c).leavesExact 6 t = owns (c : Thread nD τ) (ms6 t) fullShare (outAt m c t) := by
  unfold Dat.leavesExact; rw [live6 t h, after6]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in0, leaves_in1, leaves_in2, leaves_in3, leaves_in4, leaves_in5]
  unfold PhiS
  by_cases h10 : t.val < 10
  · have hc1 : k0_cond1 (grid0.coords t) = 1#1 := (hcond1 t).mpr h10
    have hc2 : ¬ k0_cond2 (grid0.coords t) = 1#1 := fun h => by have := (hcond2 t).mp h; omega
    have hc3 : ¬ k0_cond3 (grid0.coords t) = 1#1 := fun h => by have := (hcond3 t).mp h; omega
    rw [Dat.leavesExact_idle (dats m 0 c) 6 t (idle6 t (by omega)) (noFlush6 t (by omega))]
    iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, H6⟩
    iapply (run_first c (grid0.coords t) _ _ _ _ _ _ _ _ _ _ _ _ _ _ _ _ _ _ hc1 hc2 hc3 (iblk m c 0 t) (iblk m c 2 t) s1 Set.univ _)
    isplitl [H0]; · iexact H0
    isplitl [H2]; · iexact H2
    isplitl [HS1]; · iexact HS1
    iintro ⟨H0, H2, HS1⟩
    isplitl [HS1 HS2 Hg]
    · iexists _, s2
      isplitl [HS1]; · iexact HS1
      isplitl [HS2]; · iexact HS2
      isplitr
      · ipureintro
        exact inv_first m c t h10 _ (hoff1 t h10) _ s1 _ s2 (stored_overwrites scM0 (Memref.isWhole_whole _) s1 _ _ _ _) hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h35 : t.val < 35
    · have hc1 : ¬ k0_cond1 (grid0.coords t) = 1#1 := fun h => by have := (hcond1 t).mp h; omega
      have hc2 : k0_cond2 (grid0.coords t) = 1#1 := (hcond2 t).mpr ⟨by omega, h35⟩
      have hc3 : ¬ k0_cond3 (grid0.coords t) = 1#1 := fun h => by have := (hcond3 t).mp h; omega
      rw [Dat.leavesExact_idle (dats m 0 c) 6 t (idle6 t h35) (noFlush6 t h35)]
      iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, H6⟩
      iapply (run_second c (grid0.coords t) _ _ _ _ _ _ _ _ _ _ _ _ _ _ _ _ _ _ hc1 hc2 hc3 (iblk m c 1 t) (iblk m c 3 t) (iblk m c 4 t) s1 s2 Set.univ _)
      isplitl [H1]; · iexact H1
      isplitl [H3]; · iexact H3
      isplitl [H4]; · iexact H4
      isplitl [HS1]; · iexact HS1
      isplitl [HS2]; · iexact HS2
      iintro ⟨H1, H3, H4, HS1, HS2⟩
      isplitl [HS1 HS2 Hg]
      · iexists s1, _
        isplitl [HS1]; · iexact HS1
        isplitl [HS2]; · iexact HS2
        isplitr
        · ipureintro
          exact inv_second m c t (by omega) h35 _ (hoff2 t (by omega) h35) _ s1 s2 _ (stored_overwrites scM1 (Memref.isWhole_whole _) s2 _ _ _ _) hI
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬ k0_cond1 (grid0.coords t) = 1#1 := fun h => by have := (hcond1 t).mp h; omega
      have hc2 : ¬ k0_cond2 (grid0.coords t) = 1#1 := fun h => by have := (hcond2 t).mp h; omega
      have hc3 : k0_cond3 (grid0.coords t) = 1#1 := (hcond3 t).mpr (by omega)
      rw [leaves_out_live m c t (by omega)]
      iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, ⟨%d6, H6⟩⟩
      obtain ⟨hs2, hI'⟩ := inv_third m c t (by omega) s1 s2 hI
      subst hs2
      iapply (run_third c (grid0.coords t) _ _ _ _ _ _ _ _ _ _ _ _ _ _ _ _ _ _ hc1 hc2 hc3 (iblk m c 1 t) (iblk m c 5 t) ((dats m 0 c).before 6 t d6) (HWspec m c) Set.univ _)
      isplitl [H1]; · iexact H1
      isplitl [H5]; · iexact H5
      isplitl [H6]; · iexact H6
      isplitl [HS2]; · iexact HS2
      iintro ⟨H1, H5, H6, HS2⟩
      isplitl [HS1 HS2 Hg]
      · iexists s1, _
        isplitl [HS1]; · iexact HS1
        isplitl [HS2]; · iexact HS2
        isplitr
        · ipureintro; exact hI'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiA0_eq]
  unfold PhiS
  iintro ⟨⟨⟨%s1, HS1⟩, ⟨%s2, HS2⟩⟩, Hg⟩
  iexists s1, s2
  isplitl [HS1]; · iexact HS1
  isplitl [HS2]; · iexact HS2
  isplitr
  · ipureintro; exact inv_zero m c s1 s2
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%s1, %s2, HS1, HS2, -, Hg⟩
  isplitl [HS1 HS2]
  · isplitl [HS1]
    · iexists _; iexact HS1
    · iexists _; iexact HS2
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and leaves its six argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealRuns.lean ====
/-
  The kernel body at one grid point, in each of its three phases, as a separation-logic triple on whole memrefs.

  The body is three guarded blocks and at every grid point exactly one guard holds.  In the first phase it multiplies
  the point's block of x by W1 and stores the product into one 1000-row slice of the first scratch; in the second it
  multiplies the point's block of adj by the whole first scratch, adds the bias, clamps at zero, multiplies by W2 and
  stores into one 400-row slice of the second scratch; in the third it multiplies the point's block of adj by the whole
  second scratch, adds the second bias and stores the whole output block.  Each triple names what the one stored
  buffer holds afterwards as the read-back of a single store over what it held before, with the payload a function of
  the contents the inputs were handed at; every other buffer it mentions is returned as it was found.
-/
import proofs.«179229_g29197187678275_cont_9to1_429_16_alg».proof.Proof.Gen.KernelIdeal.Frame
import proofs.«179229_g29197187678275_cont_9to1_429_16_alg».proof.Proof.Gen.KernelIdeal.Skeleton
import proofs.«179229_g29197187678275_cont_9to1_429_16_alg».proof.Proof.LibStoreRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStoreRead

variable {F : FTy → Type} [FloatOps F]

local notation "𝕄" => MT nD τ sig Unit (Elt F) ℕ (UR sig nD τ) ℕ

/-- What a whole memref that held `X` reads after one store of `w` through the unit-stride box of extents `size` at
    offsets `off`. -/
def stored {s : Shape} {e : EltTy} (m : Memref sig .tc .vmem s e) (h : m.IsWhole) (X : s.Idx → Elt F e)
    (off size : Fin s.rank → ℕ) (inb : ∀ a, off a + size a ≤ s.size a) (w : (Rect.unit off size inb).shape.Idx → Elt F e) : s.Idx → Elt F e :=
  m.view.read (Elt F) (m.view.writes (Elt F) (h.unread X) [(⟨Rect.unit off size inb, w⟩ : View.Piece (Elt F) s e)])

/-- It is `X` overwritten by `w` on the box. -/
theorem stored_overwrites {s : Shape} {e : EltTy} (m : Memref sig .tc .vmem s e) (h : m.IsWhole) (X : s.Idx → Elt F e)
    (off size : Fin s.rank → ℕ) (inb : ∀ a, off a + size a ≤ s.size a) (w : (Rect.unit off size inb).shape.Idx → Elt F e) :
    Overwrites off size inb X (stored m h X off size inb w) w :=
  overwrites_read_writes h X off size inb w

set_option maxHeartbeats 1000000 in
/-- First phase: the product of the x block and W1 lands in the first scratch's slice at the point's offsets. -/
theorem run_first (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : k0_cond1 i = 1#1) (hc2 : ¬ k0_cond2 i = 1#1) (hc3 : ¬ k0_cond3 i = 1#1)
    (x0 : Vec F S1000x512 .f32) (w1 : Vec F S512x512 .bf16) (s1 : Vec F S10000x512 .bf16) (E : Set ℕ) (K : PUnit → sProp 𝕄) :
    iprop(owns (c : Thread nD τ) arg1 fullShare x0 ∗ owns (c : Thread nD τ) arg3 fullShare w1 ∗ owns (c : Thread nD τ) arg8 fullShare s1
        ∗ (iprop(owns (c : Thread nD τ) arg1 fullShare x0 ∗ owns (c : Thread nD τ) arg3 fullShare w1
            ∗ owns (c : Thread nD τ) arg8 fullShare (stored arg8 harg8 s1 (k0_off1 i) S1000x512.size (k0_off1_inb i hc1) (k0_pay1 x0 w1))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e0 := load_whole (Val := Elt F) harg1 x0 zeros2 inb_S1000x512_S1000x512_0_0
  have e3 := load_whole (Val := Elt F) harg3 w1 zeros2 inb_S512x512_S512x512_0_0
  simp only [cc0__gcn_kernel_eq_skeleton]; unfold cc0__gcn_kernel_skel
  unfold stored owns
  iintro ⟨⟨%f0, %hf0, H0⟩, ⟨%f3, %hf3, H3⟩, ⟨%fs, %hfs, HS⟩, Hk⟩
  obtain rfl := harg1.eq_unread hf0; obtain rfl := harg3.eq_unread hf3; obtain rfl := harg8.eq_unread hfs
  sl_exec (disch := first | exact hc1 | exact hc2 | exact hc3)
  sl_step
  iapply Hk
  isplitl [H0]
  · iexists _; isplitr; · ipureintro; exact harg1.read_unread _
    iexact H0
  isplitl [H3]
  · iexists _; isplitr; · ipureintro; exact harg3.read_unread _
    iexact H3
  iexists _; isplitr
  swap; · iexact HS
  ipureintro; first | rfl | (rw [e0, e3])

set_option maxHeartbeats 1000000 in
/-- Second phase: the adj block times the whole first scratch, biased, clamped at zero and multiplied by W2, lands in
    the second scratch's slice at the point's offsets; the first scratch is only read. -/
theorem run_second (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : ¬ k0_cond1 i = 1#1) (hc2 : k0_cond2 i = 1#1) (hc3 : ¬ k0_cond3 i = 1#1)
    (a : Vec F S400x10000 .f32) (w2 : Vec F S512x512 .bf16) (b : Vec F S1x512 .f32)
    (s1 s2 : Vec F S10000x512 .bf16) (E : Set ℕ) (K : PUnit → sProp 𝕄) :
    iprop(owns (c : Thread nD τ) arg2 fullShare a ∗ owns (c : Thread nD τ) arg4 fullShare w2 ∗ owns (c : Thread nD τ) arg5 fullShare b
        ∗ owns (c : Thread nD τ) arg8 fullShare s1 ∗ owns (c : Thread nD τ) arg9 fullShare s2
        ∗ (iprop(owns (c : Thread nD τ) arg2 fullShare a ∗ owns (c : Thread nD τ) arg4 fullShare w2 ∗ owns (c : Thread nD τ) arg5 fullShare b
            ∗ owns (c : Thread nD τ) arg8 fullShare s1
            ∗ owns (c : Thread nD τ) arg9 fullShare (stored arg9 harg9 s2 (k0_off2 i) S400x512.size (k0_off2_inb i hc2) (k0_pay2 a s1 b w2))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e2 := load_whole (Val := Elt F) harg2 a zeros2 inb_S400x10000_S400x10000_0_0
  have e4 := load_whole (Val := Elt F) harg4 w2 zeros2 inb_S512x512_S512x512_0_0
  have e5 := load_whole (Val := Elt F) harg5 b zeros2 inb_S1x512_S1x512_0_0
  have e8 := load_whole (Val := Elt F) harg8 s1 zeros2 inb_S10000x512_S10000x512_0_0
  simp only [cc0__gcn_kernel_eq_skeleton]; unfold cc0__gcn_kernel_skel
  unfold stored owns
  iintro ⟨⟨%f2, %hf2, H2⟩, ⟨%f4, %hf4, H4⟩, ⟨%f5, %hf5, H5⟩, ⟨%f8, %hf8, H8⟩, ⟨%f9, %hf9, H9⟩, Hk⟩
  obtain rfl := harg2.eq_unread hf2; obtain rfl := harg4.eq_unread hf4; obtain rfl := harg5.eq_unread hf5
  obtain rfl := harg8.eq_unread hf8; obtain rfl := harg9.eq_unread hf9
  sl_exec (disch := first | exact hc1 | exact hc2 | exact hc3)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr
  swap; · iexact H9
  ipureintro; first | rfl | (rw [e2, e4, e5, e8])

set_option maxHeartbeats 1000000 in
/-- Third phase: the adj block times the whole second scratch plus the second bias is stored over the whole output
    block, whatever that buffer held; both scratch buffers are left as found. -/
theorem run_third (c : Dev nD) (i : grid0.Coords)
    (arg1 : Memref sig .tc .vmem S1000x512 .f32) (harg1 : arg1.IsWhole) (arg2 : Memref sig .tc .vmem S400x10000 .f32) (harg2 : arg2.IsWhole)
    (arg3 : Memref sig .tc .vmem S512x512 .bf16) (harg3 : arg3.IsWhole) (arg4 : Memref sig .tc .vmem S512x512 .bf16) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S400x512 .f32) (harg7 : arg7.IsWhole) (arg8 : Memref sig .tc .vmem S10000x512 .bf16) (harg8 : arg8.IsWhole)
    (arg9 : Memref sig .tc .vmem S10000x512 .bf16) (harg9 : arg9.IsWhole)
    (hc1 : ¬ k0_cond1 i = 1#1) (hc2 : ¬ k0_cond2 i = 1#1) (hc3 : k0_cond3 i = 1#1)
    (a : Vec F S400x10000 .f32) (b : Vec F S1x512 .f32) (d : Vec F S400x512 .f32)
    (s2 : Vec F S10000x512 .bf16) (E : Set ℕ) (K : PUnit → sProp 𝕄) :
    iprop(owns (c : Thread nD τ) arg2 fullShare a ∗ owns (c : Thread nD τ) arg6 fullShare b ∗ owns (c : Thread nD τ) arg7 fullShare d
        ∗ owns (c : Thread nD τ) arg9 fullShare s2
        ∗ (iprop(owns (c : Thread nD τ) arg2 fullShare a ∗ owns (c : Thread nD τ) arg6 fullShare b
            ∗ owns (c : Thread nD τ) arg7 fullShare (k0_pay3 a s2 b)
            ∗ owns (c : Thread nD τ) arg9 fullShare s2) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  have e2 := load_whole (Val := Elt F) harg2 a zeros2 inb_S400x10000_S400x10000_0_0
  have e6 := load_whole (Val := Elt F) harg6 b zeros2 inb_S1x512_S1x512_0_0
  have e9 := load_whole (Val := Elt F) harg9 s2 zeros2 inb_S10000x512_S10000x512_0_0
  simp only [cc0__gcn_kernel_eq_skeleton]; unfold cc0__gcn_kernel_skel
  unfold owns
  iintro ⟨⟨%f2, %hf2, H2⟩, ⟨%f6, %hf6, H6⟩, ⟨%f7, %hf7, H7⟩, ⟨%f9, %hf9, H9⟩, Hk⟩
  obtain rfl := harg2.eq_unread hf2; obtain rfl := harg6.eq_unread hf6; obtain rfl := harg7.eq_unread hf7
  obtain rfl := harg9.eq_unread hf9
  sl_exec (disch := first | exact hc1 | exact hc2 | exact hc3)
  sl_step
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr
    swap; · iexact H7
    ipureintro; (try rw [e2, e6, e9])
    exact read_store_whole (Val := Elt F) arg7.view _ zeros2 inb_S400x512_S400x512_0_0 _
  iexists _; isplitr; · ipureintro; exact harg9.read_unread _
  iexact H9

end Cert.KernelIdeal.Body

end
-- ==== Proof.KernelIdealSpec.lean ====
/-
  What the two scratch buffers hold from point to point, in closed form.

  The first scratch is filled in ten slices of 1000 rows: row r of it ends as row (r mod 1000) of the product of the
  (r / 1000)-th block of x with W1.  The second scratch is filled in twenty-five slices of 400 rows at the points 10 to
  34: row r of it ends as row (r mod 400) of what the second phase computes from the (r / 400)-th block of adj and the
  whole first scratch.  The invariant before point n says that the rows already stored hold these values; rows not
  yet stored are unconstrained.  One store of a slice extends the filled rows by that slice and leaves the rows below
  it alone, because they miss the stored box on the row axis.
-/
import proofs.«179229_g29197187678275_cont_9to1_429_16_alg».proof.Proof.KernelIdealRuns
import Idealize.ShloMosaic.Lib.ValueIdx

set_option maxRecDepth 16384

noncomputable section

namespace Cert.KernelIdeal.Body

open Idealize.ShloMosaic Idealize.ShloMosaic.TcCoe Idealize.ShloMosaic.ValueIdx
open Idealize.SL Idealize.SL.Sem
open Cert.KernelIdeal Cert.KernelIdeal.Gen Cert.LibStoreRead

variable {F : FTy → Type} [FloatOps F]

variable (m : (ℓ : Loc nD τ sig) → Buf (Elt F) ℓ)

/-- The block of x the pipeline stages at point `t`. -/
def xblk (c : Dev nD) (t : Fin cfg0.N) : Vec F S1000x512 .f32 := iblk m c 0 t
/-- The block of adj staged at point `t`. -/
def ablk (c : Dev nD) (t : Fin cfg0.N) : Vec F S400x10000 .f32 := iblk m c 1 t
/-- The (one) block of the narrowed W1. -/
def w1blk (c : Dev nD) (t : Fin cfg0.N) : Vec F S512x512 .bf16 := iblk m c 2 t
/-- The (one) block of the narrowed W2. -/
def w2blk (c : Dev nD) (t : Fin cfg0.N) : Vec F S512x512 .bf16 := iblk m c 3 t
/-- The (one) block of the first bias as a row. -/
def b1blk (c : Dev nD) (t : Fin cfg0.N) : Vec F S1x512 .f32 := iblk m c 4 t
/-- The (one) block of the second bias as a row. -/
def b2blk (c : Dev nD) (t : Fin cfg0.N) : Vec F S1x512 .f32 := iblk m c 5 t

/-- The point of the first phase that stores row `y 0` of the first scratch. -/
def ptFirst (y : S10000x512.Idx) : Fin cfg0.N :=
  ⟨(y 0).val / 1000, lt_of_lt_of_eq (by have := idx2_lt0 y; omega) N_0.symm⟩
/-- The point of the second phase that stores row `y 0` of the second scratch. -/
def ptSecond (y : S10000x512.Idx) : Fin cfg0.N :=
  ⟨10 + (y 0).val / 400, lt_of_lt_of_eq (by have := idx2_lt0 y; omega) N_0.symm⟩
/-- Where an index of a scratch sits inside its 1000-row slice. -/
def inFirst (y : S10000x512.Idx) : S1000x512.Idx :=
  ix2 ⟨(y 0).val % 1000, Nat.mod_lt _ (by decide)⟩ ⟨(y 1).val, idx2_lt1 y⟩
/-- Where an index of a scratch sits inside its 400-row slice. -/
def inSecond (y : S10000x512.Idx) : S400x512.Idx :=
  ix2 ⟨(y 0).val % 400, Nat.mod_lt _ (by decide)⟩ ⟨(y 1).val, idx2_lt1 y⟩

/-- The first scratch once the first phase is over. -/
def S1spec (c : Dev nD) : Vec F S10000x512 .bf16 :=
  fun y => k0_pay1 (xblk m c (ptFirst y)) (w1blk m c (ptFirst y)) (inFirst y)
/-- The second scratch once the second phase is over. -/
def HWspec (c : Dev nD) : Vec F S10000x512 .bf16 :=
  fun y => k0_pay2 (ablk m c (ptSecond y)) (S1spec m c) (b1blk m c (ptSecond y)) (w2blk m c (ptSecond y)) (inSecond y)
/-- The output block a point of the third phase stores. -/
def outAt (c : Dev nD) (t : Fin cfg0.N) : Vec F S400x512 .f32 :=
  k0_pay3 (ablk m c t) (HWspec m c) (b2blk m c t)

/-- Before point `n`: the rows of the first scratch stored so far (the first 1000 · min n 10) and those of the
    second (the first 400 · (min n 35 − 10)) hold their final values. -/
def Inv (c : Dev nD) (n : ℕ) (s1 s2 : Vec F S10000x512 .bf16) : Prop :=
  (∀ y : S10000x512.Idx, (y 0).val < 1000 * min n 10 → s1 y = S1spec m c y) ∧
  (∀ y : S10000x512.Idx, (y 0).val < 400 * (min n 35 - 10) → s2 y = HWspec m c y)

/-- Nothing is claimed before the first point. -/
theorem inv_zero (c : Dev nD) (s1 s2 : Vec F S10000x512 .bf16) : Inv m c 0 s1 s2 :=
  ⟨fun y hy => absurd hy (by simp), fun y hy => absurd hy (by simp)⟩

/-- A point of the first phase stores its slice of the first scratch. -/
theorem inv_first (c : Dev nD) (t : Fin cfg0.N) (ht : t.val < 10) (off : Fin 2 → ℕ) (hoff : off = ![1000 * t.val, 0])
    (inb : ∀ a, off a + S1000x512.size a ≤ S10000x512.size a) (s1 s1' s2 : Vec F S10000x512 .bf16)
    (hO : Overwrites (s := S10000x512) (e := EltTy.bf16) (Val := Elt F) off S1000x512.size inb s1 s1' (k0_pay1 (xblk m c t) (w1blk m c t)))
    (hI : Inv m c t.val s1 s2) : Inv m c (t.val + 1) s1' s2 := by
  subst hoff
  have hm : min t.val 10 = t.val := by omega
  have hm' : min (t.val + 1) 10 = t.val + 1 := by omega
  have hz : min t.val 35 - 10 = 0 := by omega
  have hz' : min (t.val + 1) 35 - 10 = 0 := by omega
  refine ⟨fun y hy => ?_, fun y hy => ?_⟩
  · rw [hm'] at hy
    by_cases h : (y 0).val < 1000 * t.val
    · rw [hO.2 y 0 (Or.inl h)]
      exact hI.1 y (by rw [hm]; exact h)
    · have hp : ptFirst y = t := Fin.ext (show (y 0).val / 1000 = t.val by omega)
      rw [hO.1 y (inFirst y) (fun a => by
        match a with
        | ⟨0, _⟩ => show (y 0).val = 1000 * t.val + (y 0).val % 1000; omega
        | ⟨1, _⟩ => show (y 1).val = 0 + (y 1).val; omega)]
      show _ = k0_pay1 (xblk m c (ptFirst y)) (w1blk m c (ptFirst y)) (inFirst y)
      rw [hp]
  · rw [hz'] at hy; exact absurd hy (by omega)

/-- A point of the second phase stores its slice of the second scratch, computed from the whole first scratch. -/
theorem inv_second (c : Dev nD) (t : Fin cfg0.N) (h10 : 10 ≤ t.val) (h35 : t.val < 35) (off : Fin 2 → ℕ)
    (hoff : off = ![400 * (t.val - 10), 0])
    (inb : ∀ a, off a + S400x512.size a ≤ S10000x512.size a) (s1 s2 s2' : Vec F S10000x512 .bf16)
    (hO : Overwrites (s := S10000x512) (e := EltTy.bf16) (Val := Elt F) off S400x512.size inb s2 s2' (k0_pay2 (ablk m c t) s1 (b1blk m c t) (w2blk m c t)))
    (hI : Inv m c t.val s1 s2) : Inv m c (t.val + 1) s1 s2' := by
  subst hoff
  have hm : min t.val 10 = 10 := by omega
  have hm' : min (t.val + 1) 10 = 10 := by omega
  have hz : min t.val 35 - 10 = t.val - 10 := by omega
  have hz' : min (t.val + 1) 35 - 10 = t.val + 1 - 10 := by omega
  have hs1 : s1 = S1spec m c := funext fun y => hI.1 y (by rw [hm]; have := idx2_lt0 y; omega)
  subst hs1
  refine ⟨fun y hy => hI.1 y (by rw [hm]; rw [hm'] at hy; exact hy), fun y hy => ?_⟩
  rw [hz'] at hy
  by_cases h : (y 0).val < 400 * (t.val - 10)
  · rw [hO.2 y 0 (Or.inl h)]
    exact hI.2 y (by rw [hz]; exact h)
  · have hp : ptSecond y = t := Fin.ext (show 10 + (y 0).val / 400 = t.val by omega)
    rw [hO.1 y (inSecond y) (fun a => by
      match a with
      | ⟨0, _⟩ => show (y 0).val = 400 * (t.val - 10) + (y 0).val % 400; omega
      | ⟨1, _⟩ => show (y 1).val = 0 + (y 1).val; omega)]
    show _ = k0_pay2 (ablk m c (ptSecond y)) (S1spec m c) (b1blk m c (ptSecond y)) (w2blk m c (ptSecond y)) (inSecond y)
    rw [hp]

/-- A point of the third phase finds the second scratch complete and changes neither scratch. -/
theorem inv_third (c : Dev nD) (t : Fin cfg0.N) (h35 : 35 ≤ t.val) (s1 s2 : Vec F S10000x512 .bf16)
    (hI : Inv m c t.val s1 s2) : s2 = HWspec m c ∧ Inv m c (t.val + 1) s1 s2 := by
  have hm : min t.val 10 = 10 := by omega
  have hm' : min (t.val + 1) 10 = 10 := by omega
  have hz : min t.val 35 - 10 = 25 := by omega
  have hz' : min (t.val + 1) 35 - 10 = 25 := by omega
  refine ⟨funext fun y => hI.2 y (by rw [hz]; have := idx2_lt0 y; omega), fun y hy => hI.1 y ?_, fun y hy => hI.2 y ?_⟩
  · rw [hm]; rw [hm'] at hy; exact hy
  · rw [hz]; rw [hz'] at hy; exact hy

end Cert.KernelIdeal.Body

end
-- ==== Proof.KernelIdealBody.lean ====
/-
  The pipeline's proof data and the body obligation at every grid point.

  The grid has sixty points and each guard of the body is a range of them: the first phase is the points below 10, the
  second the points from 10 to 34, the third the points from 35 on; the first phase stores at row offset 1000 · t and
  the second at 400 · (t − 10).  The region invariant holds the two scratch buffers at SOME contents satisfying the
  closed-form invariant for the point; every input's staging buffer holds its block at every point, and the output's
  buffer, untouched and not written back before point 35, holds from then on what the third phase computes from the
  complete second scratch.  At each point the case's triple runs the body, and the invariant's step lemma carries it
  to the next point.
-/
import proofs.«179229_g29197187678275_cont_9to1_429_16_alg».proof.Proof.KernelIdealSpec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibStoreRead

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards, the offsets and the output window's schedule, over the sixty points -/

theorem hcond1 : ∀ t : Fin cfg0.N, k0_cond1 (grid0.coords t) = 1#1 ↔ t.val < 10 :=
  (by decide +kernel : ∀ t : Fin grid0.N, k0_cond1 (grid0.coords t) = 1#1 ↔ t.val < 10)
theorem hcond2 : ∀ t : Fin cfg0.N, k0_cond2 (grid0.coords t) = 1#1 ↔ (10 ≤ t.val ∧ t.val < 35) :=
  (by decide +kernel : ∀ t : Fin grid0.N, k0_cond2 (grid0.coords t) = 1#1 ↔ (10 ≤ t.val ∧ t.val < 35))
theorem hcond3 : ∀ t : Fin cfg0.N, k0_cond3 (grid0.coords t) = 1#1 ↔ 35 ≤ t.val :=
  (by decide +kernel : ∀ t : Fin grid0.N, k0_cond3 (grid0.coords t) = 1#1 ↔ 35 ≤ t.val)
theorem hoff1 : ∀ t : Fin cfg0.N, t.val < 10 → k0_off1 (grid0.coords t) = ![1000 * t.val, 0] :=
  (by decide +kernel : ∀ t : Fin grid0.N, t.val < 10 → k0_off1 (grid0.coords t) = ![1000 * t.val, 0])
theorem hoff2 : ∀ t : Fin cfg0.N, 10 ≤ t.val → t.val < 35 → k0_off2 (grid0.coords t) = ![400 * (t.val - 10), 0] :=
  (by decide +kernel : ∀ t : Fin grid0.N, 10 ≤ t.val → t.val < 35 → k0_off2 (grid0.coords t) = ![400 * (t.val - 10), 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before point 35 the output window is idle and is not written back; from 35 on it is live. -/
theorem idle6 : ∀ t : Fin cfg0.N, t.val < 35 → cfg0.idle 6 (grid0.coords t) = true := by decide +kernel
theorem noFlush6 : ∀ t : Fin cfg0.N, t.val < 35 → (cfg0.win 6).flush t = false := by decide +kernel
theorem live6 : ∀ t : Fin cfg0.N, 35 ≤ t.val → cfg0.idle 6 (grid0.coords t) = false := by decide +kernel

/-! ## The staging and scratch memrefs -/

abbrev ms0 (t : Fin cfg0.N) : Memref sig .tc .vmem S1000x512 .f32 := win0_0.stage (cfg0.slots t 0)
abbrev ms1 (t : Fin cfg0.N) : Memref sig .tc .vmem S400x10000 .f32 := win0_1.stage (cfg0.slots t 1)
abbrev ms2 (t : Fin cfg0.N) : Memref sig .tc .vmem S512x512 .bf16 := win0_2.stage (cfg0.slots t 2)
abbrev ms3 (t : Fin cfg0.N) : Memref sig .tc .vmem S512x512 .bf16 := win0_3.stage (cfg0.slots t 3)
abbrev ms4 (t : Fin cfg0.N) : Memref sig .tc .vmem S1x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S400x512 .f32 := win0_6.stage (cfg0.slots t 6)
abbrev scM0 : Memref sig .tc .vmem S10000x512 .bf16 := Memref.whole cc0_scratch0
abbrev scM1 : Memref sig .tc .vmem S10000x512 .bf16 := Memref.whole cc0_scratch1

/-- What the launch hands the region besides the windows: the two scratch buffers at some contents and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region invariant before point `n`. -/
def PhiS (c : Dev nD) (n : ℕ) : sProp 𝕄 :=
  iprop(∃ s1 s2, owns (c : Thread nD τ) scM0 fullShare s1 ∗ owns (c : Thread nD τ) scM1 fullShare s2 ∗ ⌜Inv m c n s1 s2⌝ ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in0 (c : Dev nD) (t : Fin cfg0.N) : (dats m 0 c).leavesExact 0 t = owns (c : Thread nD τ) (ms0 t) fullShare (iblk m c 0 t) := by
  unfold Dat.leavesExact; rw [live0 t, after0]
theorem leaves_in1 (c : Dev nD) (t : Fin cfg0.N) : (dats m 0 c).leavesExact 1 t = owns (c : Thread nD τ) (ms1 t) fullShare (iblk m c 1 t) := by
  unfold Dat.leavesExact; rw [live1 t, after1]
theorem leaves_in2 (c : Dev nD) (t : Fin cfg0.N) : (dats m 0 c).leavesExact 2 t = owns (c : Thread nD τ) (ms2 t) fullShare (iblk m c 2 t) := by
  unfold Dat.leavesExact; rw [live2 t, after2]
theorem leaves_in3 (c : Dev nD) (t : Fin cfg0.N) : (dats m 0 c).leavesExact 3 t = owns (c : Thread nD τ) (ms3 t) fullShare (iblk m c 3 t) := by
  unfold Dat.leavesExact; rw [live3 t, after3]
theorem leaves_in4 (c : Dev nD) (t : Fin cfg0.N) : (dats m 0 c).leavesExact 4 t = owns (c : Thread nD τ) (ms4 t) fullShare (iblk m c 4 t) := by
  unfold Dat.leavesExact; rw [live4 t, after4]
theorem leaves_in5 (c : Dev nD) (t : Fin cfg0.N) : (dats m 0 c).leavesExact 5 t = owns (c : Thread nD τ) (ms5 t) fullShare (iblk m c 5 t) := by
  unfold Dat.leavesExact; rw [live5 t, after5]
theorem leaves_out_live (c : Dev nD) (t : Fin cfg0.N) (h : 35 ≤ t.val) : (dats m 0 c).leavesExact 6 t = owns (c : Thread nD τ) (ms6 t) fullShare (outAt m c t) := by
  unfold Dat.leavesExact; rw [live6 t h, after6]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in0, leaves_in1, leaves_in2, leaves_in3, leaves_in4, leaves_in5]
  unfold PhiS
  by_cases h10 : t.val < 10
  · have hc1 : k0_cond1 (grid0.coords t) = 1#1 := (hcond1 t).mpr h10
    have hc2 : ¬ k0_cond2 (grid0.coords t) = 1#1 := fun h => by have := (hcond2 t).mp h; omega
    have hc3 : ¬ k0_cond3 (grid0.coords t) = 1#1 := fun h => by have := (hcond3 t).mp h; omega
    rw [Dat.leavesExact_idle (dats m 0 c) 6 t (idle6 t (by omega)) (noFlush6 t (by omega))]
    iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, H6⟩
    iapply (run_first c (grid0.coords t) _ _ _ _ _ _ _ _ _ _ _ _ _ _ _ _ _ _ hc1 hc2 hc3 (iblk m c 0 t) (iblk m c 2 t) s1 Set.univ _)
    isplitl [H0]; · iexact H0
    isplitl [H2]; · iexact H2
    isplitl [HS1]; · iexact HS1
    iintro ⟨H0, H2, HS1⟩
    isplitl [HS1 HS2 Hg]
    · iexists _, s2
      isplitl [HS1]; · iexact HS1
      isplitl [HS2]; · iexact HS2
      isplitr
      · ipureintro
        exact inv_first m c t h10 _ (hoff1 t h10) _ s1 _ s2 (stored_overwrites scM0 (Memref.isWhole_whole _) s1 _ _ _ _) hI
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h35 : t.val < 35
    · have hc1 : ¬ k0_cond1 (grid0.coords t) = 1#1 := fun h => by have := (hcond1 t).mp h; omega
      have hc2 : k0_cond2 (grid0.coords t) = 1#1 := (hcond2 t).mpr ⟨by omega, h35⟩
      have hc3 : ¬ k0_cond3 (grid0.coords t) = 1#1 := fun h => by have := (hcond3 t).mp h; omega
      rw [Dat.leavesExact_idle (dats m 0 c) 6 t (idle6 t h35) (noFlush6 t h35)]
      iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, H6⟩
      iapply (run_second c (grid0.coords t) _ _ _ _ _ _ _ _ _ _ _ _ _ _ _ _ _ _ hc1 hc2 hc3 (iblk m c 1 t) (iblk m c 3 t) (iblk m c 4 t) s1 s2 Set.univ _)
      isplitl [H1]; · iexact H1
      isplitl [H3]; · iexact H3
      isplitl [H4]; · iexact H4
      isplitl [HS1]; · iexact HS1
      isplitl [HS2]; · iexact HS2
      iintro ⟨H1, H3, H4, HS1, HS2⟩
      isplitl [HS1 HS2 Hg]
      · iexists s1, _
        isplitl [HS1]; · iexact HS1
        isplitl [HS2]; · iexact HS2
        isplitr
        · ipureintro
          exact inv_second m c t (by omega) h35 _ (hoff2 t (by omega) h35) _ s1 s2 _ (stored_overwrites scM1 (Memref.isWhole_whole _) s2 _ _ _ _) hI
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬ k0_cond1 (grid0.coords t) = 1#1 := fun h => by have := (hcond1 t).mp h; omega
      have hc2 : ¬ k0_cond2 (grid0.coords t) = 1#1 := fun h => by have := (hcond2 t).mp h; omega
      have hc3 : k0_cond3 (grid0.coords t) = 1#1 := (hcond3 t).mpr (by omega)
      rw [leaves_out_live m c t (by omega)]
      iintro ⟨⟨%s1, %s2, HS1, HS2, %hI, Hg⟩, Ho, ⟨%d0, H0⟩, ⟨%d1, H1⟩, ⟨%d2, H2⟩, ⟨%d3, H3⟩, ⟨%d4, H4⟩, ⟨%d5, H5⟩, ⟨%d6, H6⟩⟩
      obtain ⟨hs2, hI'⟩ := inv_third m c t (by omega) s1 s2 hI
      subst hs2
      iapply (run_third c (grid0.coords t) _ _ _ _ _ _ _ _ _ _ _ _ _ _ _ _ _ _ hc1 hc2 hc3 (iblk m c 1 t) (iblk m c 5 t) ((dats m 0 c).before 6 t d6) (HWspec m c) Set.univ _)
      isplitl [H1]; · iexact H1
      isplitl [H5]; · iexact H5
      isplitl [H6]; · iexact H6
      isplitl [HS2]; · iexact HS2
      iintro ⟨H1, H5, H6, HS2⟩
      isplitl [HS1 HS2 Hg]
      · iexists s1, _
        isplitl [HS1]; · iexact HS1
        isplitl [HS2]; · iexact HS2
        isplitr
        · ipureintro; exact hI'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiA0_eq]
  unfold PhiS
  iintro ⟨⟨⟨%s1, HS1⟩, ⟨%s2, HS2⟩⟩, Hg⟩
  iexists s1, s2
  isplitl [HS1]; · iexact HS1
  isplitl [HS2]; · iexact HS2
  isplitr
  · ipureintro; exact inv_zero m c s1 s2
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%s1, %s2, HS1, HS2, -, Hg⟩
  isplitl [HS1 HS2]
  · isplitl [HS1]
    · iexists _; iexact HS1
    · iexists _; iexact HS2
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and leaves its six argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.IdealMatmul.lean ====
/-
  The three matrix products of the kernel body, read at one entry.

  At the exact values a product accumulated into a zero block has, at row p and column q, the value
  ∑ₖ l(p,k) · r(k,q).  The library states this sum over the contraction's own index set; here it is re-indexed to
  the plain range of the contracted axis, with both operands' positions written by coordinates.
-/
import proofs.«179229_g29197187678275_cont_9to1_429_16_alg».proof.Proof.Gen.KernelIdeal
import Idealize.ShloMosaic.Lib.ValueIdx
import Idealize.ShloMosaic.PureOps.Ideal.Laws

set_option maxRecDepth 16384

noncomputable section

namespace Cert.KernelIdeal.Bridge

open Idealize.ShloMosaic Idealize.ShloMosaic.ValueIdx
open Cert.KernelIdeal Cert.KernelIdeal.Gen

/-- Row `p`, column `q` of the 1000×512 by 512×512 product accumulated into zero: the sum over the 512 contracted
    positions of the left factor's row entry times the right factor's column entry. -/
theorem mm_xw {φ₁ φ₂ : FTy} (l : FVec Ideal S1000x512 φ₁) (r : FVec Ideal S512x512 φ₂) (p : Fin 1000) (q : Fin 512) :
    FloatOps.matmul dot_S1000x512_S512x512_S1000x512_1_0_0_1_n_n none l r (constant S1000x512 .f32 0x00000000#32) (ix2 p q)
      = ∑ k : Fin 512, l (ix2 p k) * r (ix2 k q) := by
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p q) ((contrEquiv1 dot_S1000x512_S512x512_S1000x512_1_0_0_1_n_n 512 rfl rfl).symm k) = ix2 p k := funext fun a => Fin.ext (by
    match a with
    | ⟨0, _⟩ =>
      show (dot_S1000x512_S512x512_S1000x512_1_0_0_1_n_n.lhsIdx (ix2 p q) _ 0).val = p.val
      unfold DotDims.lhsIdx
      rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
      rfl
    | ⟨1, _⟩ => exact (dot_S1000x512_S512x512_S1000x512_1_0_0_1_n_n.lhsIdx_val_of_single rfl (ix2 p q) _).trans hk)
  have er : dot_S1000x512_S512x512_S1000x512_1_0_0_1_n_n.rhsIdx (ix2 p q) ((contrEquiv1 dot_S1000x512_S512x512_S1000x512_1_0_0_1_n_n 512 rfl rfl).symm k) = ix2 k q := funext fun a => Fin.ext (by
    match a with
    | ⟨0, _⟩ => exact (dot_S1000x512_S512x512_S1000x512_1_0_0_1_n_n.rhsIdx_val_of_single rfl (ix2 p q) _).trans hk
    | ⟨1, _⟩ =>
      show (dot_S1000x512_S512x512_S1000x512_1_0_0_1_n_n.rhsIdx (ix2 p q) _ 1).val = q.val
      unfold DotDims.rhsIdx
      rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
      rfl)
  rw [el, er]

/-- Row `p`, column `q` of the 400×10000 by 10000×512 product accumulated into zero: the sum over the 10000 contracted
    positions of the left factor's row entry times the right factor's column entry. -/
theorem mm_adj {φ₁ φ₂ : FTy} (l : FVec Ideal S400x10000 φ₁) (r : FVec Ideal S10000x512 φ₂) (p : Fin 400) (q : Fin 512) :
    FloatOps.matmul dot_S400x10000_S10000x512_S400x512_1_0_0_1_n_n none l r (constant S400x512 .f32 0x00000000#32) (ix2 p q)
      = ∑ k : Fin 10000, l (ix2 p k) * r (ix2 k q) := by
  rw [Ideal.matmul_constant_zero_apply, ← Equiv.sum_comp (contrEquiv1 dot_S400x10000_S10000x512_S400x512_1_0_0_1_n_n 10000 rfl rfl).symm]
  refine Finset.sum_congr rfl fun k _ => ?_
  have hk := contrEquiv1_symm_val dot_S400x10000_S10000x512_S400x512_1_0_0_1_n_n 10000 rfl rfl k
  have el : dot_S400x10000_S10000x512_S400x512_1_0_0_1_n_n.lhsIdx (ix2 p q) ((contrEquiv1 dot_S400x10000_S10000x512_S400x512_1_0_0_1_n_n 10000 rfl rfl).symm k) = ix2 p k := funext fun a => Fin.ext (by
    match a with
    | ⟨0, _⟩ =>
      show (dot_S400x10000_S10000x512_S400x512_1_0_0_1_n_n.lhsIdx (ix2 p q) _ 0).val = p.val
      unfold DotDims.lhsIdx
      rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
      rfl
    | ⟨1, _⟩ => exact (dot_S400x10000_S10000x512_S400x512_1_0_0_1_n_n.lhsIdx_val_of_single rfl (ix2 p q) _).trans hk)
  have er : dot_S400x10000_S10000x512_S400x512_1_0_0_1_n_n.rhsIdx (ix2 p q) ((contrEquiv1 dot_S400x10000_S10000x512_S400x512_1_0_0_1_n_n 10000 rfl rfl).symm k) = ix2 k q := funext fun a => Fin.ext (by
    match a with
    | ⟨0, _⟩ => exact (dot_S400x10000_S10000x512_S400x512_1_0_0_1_n_n.rhsIdx_val_of_single rfl (ix2 p q) _).trans hk
    | ⟨1, _⟩ =>
      show (dot_S400x10000_S10000x512_S400x512_1_0_0_1_n_n.rhsIdx (ix2 p q) _ 1).val = q.val
      unfold DotDims.rhsIdx
      rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
      rfl)
  rw [el, er]

/-- Row `p`, column `q` of the 400×512 by 512×512 product accumulated into zero: the sum over the 512 contracted
    positions of the left factor's row entry times the right factor's column entry. -/
theorem mm_hw {φ₁ φ₂ : FTy} (l : FVec Ideal S400x512 φ₁) (r : FVec Ideal S512x512 φ₂) (p : Fin 400) (q : Fin 512) :
    FloatOps.matmul dot_S400x512_S512x512_S400x512_1_0_0_1_n_n none l r (constant S400x512 .f32 0x00000000#32) (ix2 p q)
      = ∑ k : Fin 512, l (ix2 p k) * r (ix2 k q) := by
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k := funext fun a => Fin.ext (by
    match a with
    | ⟨0, _⟩ =>
      show (dot_S400x512_S512x512_S400x512_1_0_0_1_n_n.lhsIdx (ix2 p q) _ 0).val = p.val
      unfold DotDims.lhsIdx
      rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
      rfl
    | ⟨1, _⟩ => exact (dot_S400x512_S512x512_S400x512_1_0_0_1_n_n.lhsIdx_val_of_single rfl (ix2 p q) _).trans hk)
  have er : dot_S400x512_S512x512_S400x512_1_0_0_1_n_n.rhsIdx (ix2 p q) ((contrEquiv1 dot_S400x512_S512x512_S400x512_1_0_0_1_n_n 512 rfl rfl).symm k) = ix2 k q := funext fun a => Fin.ext (by
    match a with
    | ⟨0, _⟩ => exact (dot_S400x512_S512x512_S400x512_1_0_0_1_n_n.rhsIdx_val_of_single rfl (ix2 p q) _).trans hk
    | ⟨1, _⟩ =>
      show (dot_S400x512_S512x512_S400x512_1_0_0_1_n_n.rhsIdx (ix2 p q) _ 1).val = q.val
      unfold DotDims.rhsIdx
      rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
      rfl)
  rw [el, er]

end Cert.KernelIdeal.Bridge

end
-- ==== Proof.IdealPay.lean ====
/-
  The three stored values of the kernel body, read at one entry, at the exact values.

  First phase: a 1000-row block of x times W1.  Second phase: a 400-row block of adj times the whole first
  scratch, plus the first bias along each row, clipped below at zero, then times W2.  Third phase: a 400-row block
  of adj times the whole second scratch, plus the second bias along each row.  Narrowing to the 16-bit format and
  re-shaping to the same shape change nothing at the exact values.
-/
import proofs.«179229_g29197187678275_cont_9to1_429_16_alg».proof.Proof.IdealMatmul
import proofs.«179229_g29197187678275_cont_9to1_429_16_alg».proof.Proof.Gen.KernelIdeal.Skeleton
import Idealize.ShloMosaic.Lib.Pipeline.Value

set_option maxRecDepth 16384

noncomputable section

namespace Cert.KernelIdeal.Bridge

open Idealize.ShloMosaic Idealize.ShloMosaic.ValueIdx
open Cert.KernelIdeal Cert.KernelIdeal.Gen

/-- The bias row spread over the 400 rows of a block reads, at row `p` and column `j`, the bias at column `j`. -/
theorem bias_row (b : Vec Ideal S1x512 .f32) (p : Fin 400) (j : Fin 512) :
    broadcastTo S400x512 b broadcasts_S1x512_S400x512 (ix2 p j) = b (ix2 0 j) :=
  broadcastTo_apply b broadcasts_S1x512_S400x512 (ix2 p j) (ix2 0 j) (fun a => by
    match a with
    | ⟨0, _⟩ => rfl
    | ⟨1, _⟩ => rfl)

/-- First phase: entry (p, q) of the stored block is ∑ₖ x(p,k) · W1(k,q). -/
theorem pay1_apply (x : Vec Ideal S1000x512 .f32) (w : Vec Ideal S512x512 .bf16) (p : Fin 1000) (q : Fin 512) :
    k0_pay1 x w (ix2 p q) = ∑ k : Fin 512, x (ix2 p k) * w (ix2 k q) := by
  unfold k0_pay1
  rw [shapeCast_self, shapeCast_self]
  exact mm_xw (φ₁ := .bf16) (φ₂ := .bf16) (truncf .bf16 x bitsLt_bf16_f32) w p q

/-- Second phase: entry (p, q) of the stored block is ∑ⱼ max(∑ₖ adj(p,k) · s(k,j) + b1(j), 0) · W2(j,q). -/
theorem pay2_apply (a : Vec Ideal S400x10000 .f32) (s : Vec Ideal S10000x512 .bf16) (b : Vec Ideal S1x512 .f32)
    (w : Vec Ideal S512x512 .bf16) (p : Fin 400) (q : Fin 512) :
    k0_pay2 a s b w (ix2 p q)
      = ∑ j : Fin 512, max ((∑ k : Fin 10000, a (ix2 p k) * s (ix2 k j)) + b (ix2 0 j)) 0 * w (ix2 j q) := by
  unfold k0_pay2
  rw [shapeCast_self, shapeCast_self, shapeCast_self]
  refine (mm_hw (φ₁ := .bf16) (φ₂ := .bf16) _ w p q).trans (Finset.sum_congr rfl fun j _ => congrArg (· * w (ix2 j q)) ?_)
  show max (FloatOps.matmul (F := Ideal) (φ₁ := .bf16) (φ₂ := .bf16) dot_S400x10000_S10000x512_S400x512_1_0_0_1_n_n none (truncf .bf16 a bitsLt_bf16_f32) s
      (constant S400x512 .f32 0x00000000#32) (ix2 p j) + broadcastTo S400x512 b broadcasts_S1x512_S400x512 (ix2 p j))
      (Ideal.ofBits .f32 0x00000000#32) = _
  rw [mm_adj (φ₁ := .bf16) (φ₂ := .bf16), bias_row, Ideal.ofBits_zero_f32]
  rfl

/-- Third phase: entry (p, q) of the stored block is ∑ₖ adj(p,k) · s(k,q) + b2(q). -/
theorem pay3_apply (a : Vec Ideal S400x10000 .f32) (s : Vec Ideal S10000x512 .bf16) (b : Vec Ideal S1x512 .f32)
    (p : Fin 400) (q : Fin 512) :
    k0_pay3 a s b (ix2 p q) = (∑ k : Fin 10000, a (ix2 p k) * s (ix2 k q)) + b (ix2 0 q) := by
  unfold k0_pay3
  rw [shapeCast_self]
  show FloatOps.matmul (F := Ideal) (φ₁ := .bf16) (φ₂ := .bf16) dot_S400x10000_S10000x512_S400x512_1_0_0_1_n_n none (truncf .bf16 a bitsLt_bf16_f32) s
      (constant S400x512 .f32 0x00000000#32) (ix2 p q) + broadcastTo S400x512 b broadcasts_S1x512_S400x512 (ix2 p q) = _
  rw [mm_adj (φ₁ := .bf16) (φ₂ := .bf16), bias_row]
  rfl

end Cert.KernelIdeal.Bridge

end
-- ==== Proof.IdealBlocks.lean ====
/-
  The staged blocks, read off the argument arrays, at the exact values.

  At a point t of the first phase the staged block of x is rows 1000·t … 1000·t + 999.  The staged block of adj is
  rows 400·(t − 10) … of adj in the second phase and rows 400·(t − 35) … in the third.  The two weight matrices are
  staged whole, after a narrowing that is the identity at the exact values; the two biases are staged whole as one
  row of 512.
-/
import proofs.«179229_g29197187678275_cont_9to1_429_16_alg».proof.Proof.KernelIdealSpec
import Idealize.ShloMosaic.Lib.ValueIdx
import Idealize.ShloMosaic.Lib.Pipeline.Value
import Idealize.ShloMosaic.Lib.StableHlo.Run

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ)

/-! ## The block indices over the sixty points -/

theorem idx_x : ∀ t : Fin cfg0.N, (t.val < 10 → win0_0.index t (0 : Fin 2) = t.val) ∧ win0_0.index t (1 : Fin 2) = 0 :=
  (by decide +kernel : ∀ t : Fin grid0.N, (t.val < 10 → win0_0.index t (0 : Fin 2) = t.val) ∧ win0_0.index t (1 : Fin 2) = 0)
theorem idx_adj : ∀ t : Fin cfg0.N, (10 ≤ t.val → t.val < 35 → win0_1.index t (0 : Fin 2) = t.val - 10)
    ∧ (35 ≤ t.val → win0_1.index t (0 : Fin 2) = t.val - 35) ∧ win0_1.index t (1 : Fin 2) = 0 :=
  (by decide +kernel : ∀ t : Fin grid0.N, (10 ≤ t.val → t.val < 35 → win0_1.index t (0 : Fin 2) = t.val - 10)
    ∧ (35 ≤ t.val → win0_1.index t (0 : Fin 2) = t.val - 35) ∧ win0_1.index t (1 : Fin 2) = 0)
theorem idx_w1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w2 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_b1 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_b2 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## What the host operations before the call leave in the staged arrays -/

theorem V_w1 (c : Dev nD) : (V m c main_call0_v0 : S512x512.Idx → Elt Ideal .bf16)
    = truncf (F := Ideal) (s := S512x512) (φ := .f32) .bf16 (m ((c : Thread nD τ).loc main_arg2)) bitsLt_bf16_f32 := by
  dsimp only [Gen.V, Gen.hostOps0]; after_results; rfl
theorem V_w2 (c : Dev nD) : (V m c main_call0_v1 : S512x512.Idx → Elt Ideal .bf16)
    = truncf (F := Ideal) (s := S512x512) (φ := .f32) .bf16 (m ((c : Thread nD τ).loc main_arg4)) bitsLt_bf16_f32 := by
  dsimp only [Gen.V, Gen.hostOps0]; after_results; rfl
theorem V_b1 (c : Dev nD) : (V m c main_call0_v2 : S1x512.Idx → Elt Ideal .f32)
    = shapeCast S1x512 (m ((c : Thread nD τ).loc main_arg3)) shapeCasts_S512_S1x512 := by
  dsimp only [Gen.V, Gen.hostOps0]; after_results; rfl
theorem V_b2 (c : Dev nD) : (V m c main_call0_v3 : S1x512.Idx → Elt Ideal .f32)
    = shapeCast S1x512 (m ((c : Thread nD τ).loc main_arg5)) shapeCasts_S512_S1x512 := by
  dsimp only [Gen.V, Gen.hostOps0]; after_results; rfl

/-! ## The blocks -/

/-- First phase: the staged block of x at point t is rows 1000·t … of x. -/
theorem xblk_apply (c : Dev nD) (t : Fin cfg0.N) (ht : t.val < 10) (p : Fin 1000) (k : Fin 512) :
    xblk m c t (ix2 p k) = m ((c : Thread nD τ).loc main_arg0) (ix2 ⟨1000 * t.val + p.val, by omega⟩ k) := by
  obtain ⟨e0, e1⟩ := idx_x t
  show V m c main_arg0 (((cfg0.win 0).blk t).view.emb (ix2 p k)) = _
  rw [V_main_arg0]
  refine congrArg _ (funext fun a => Fin.ext ?_)
  match a with
  | ⟨0, _⟩ => show win0_0.index t (0 : Fin 2) * 1000 + 1 * p.val = 1000 * t.val + p.val; rw [e0 ht]; omega
  | ⟨1, _⟩ => show win0_0.index t (1 : Fin 2) * 512 + 1 * k.val = k.val; rw [e1]; omega

/-- Second phase: the staged block of adj at point t is rows 400·(t − 10) … of adj. -/
theorem ablk_apply_second (c : Dev nD) (t : Fin cfg0.N) (h10 : 10 ≤ t.val) (h35 : t.val < 35) (p : Fin 400) (k : Fin 10000) :
    ablk m c t (ix2 p k) = m ((c : Thread nD τ).loc main_arg1) (ix2 ⟨400 * (t.val - 10) + p.val, by omega⟩ k) := by
  obtain ⟨e0, _, e1⟩ := idx_adj t
  show V m c main_arg1 (((cfg0.win 1).blk t).view.emb (ix2 p k)) = _
  rw [V_main_arg1]
  refine congrArg _ (funext fun a => Fin.ext ?_)
  match a with
  | ⟨0, _⟩ => show win0_1.index t (0 : Fin 2) * 400 + 1 * p.val = 400 * (t.val - 10) + p.val; rw [e0 h10 h35]; omega
  | ⟨1, _⟩ => show win0_1.index t (1 : Fin 2) * 10000 + 1 * k.val = k.val; rw [e1]; omega

/-- Third phase: the staged block of adj at point t is rows 400·(t − 35) … of adj. -/
theorem ablk_apply_third (c : Dev nD) (t : Fin cfg0.N) (h35 : 35 ≤ t.val) (p : Fin 400) (k : Fin 10000) :
    ablk m c t (ix2 p k) = m ((c : Thread nD τ).loc main_arg1)
      (ix2 ⟨400 * (t.val - 35) + p.val, by have : t.val < 60 := lt_of_lt_of_eq t.isLt N_0; omega⟩ k) := by
  obtain ⟨_, e0, e1⟩ := idx_adj t
  show V m c main_arg1 (((cfg0.win 1).blk t).view.emb (ix2 p k)) = _
  rw [V_main_arg1]
  refine congrArg _ (funext fun a => Fin.ext ?_)
  match a with
  | ⟨0, _⟩ => show win0_1.index t (0 : Fin 2) * 400 + 1 * p.val = 400 * (t.val - 35) + p.val; rw [e0 h35]; omega
  | ⟨1, _⟩ => show win0_1.index t (1 : Fin 2) * 10000 + 1 * k.val = k.val; rw [e1]; omega

/-- The staged first weight matrix is W1. -/
theorem w1blk_apply (c : Dev nD) (t : Fin cfg0.N) (k : Fin 512) (j : Fin 512) :
    w1blk m c t (ix2 k j) = m ((c : Thread nD τ).loc main_arg2) (ix2 k j) := by
  obtain ⟨e0, e1⟩ := idx_w1 t
  show V m c main_call0_v0 (((cfg0.win 2).blk t).view.emb (ix2 k j)) = _
  rw [V_w1]
  show m ((c : Thread nD τ).loc main_arg2) (((cfg0.win 2).blk t).view.emb (ix2 k j)) = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 512 + 1 * j.val = j.val; rw [e1]; omega

/-- The staged second weight matrix is W2. -/
theorem w2blk_apply (c : Dev nD) (t : Fin cfg0.N) (k : Fin 512) (j : Fin 512) :
    w2blk m c t (ix2 k j) = m ((c : Thread nD τ).loc main_arg4) (ix2 k j) := by
  obtain ⟨e0, e1⟩ := idx_w2 t
  show V m c main_call0_v1 (((cfg0.win 3).blk t).view.emb (ix2 k j)) = _
  rw [V_w2]
  show m ((c : Thread nD τ).loc main_arg4) (((cfg0.win 3).blk t).view.emb (ix2 k j)) = _
  refine congrArg _ (funext fun a => Fin.ext ?_)
  match a with
  | ⟨0, _⟩ => show win0_3.index t (0 : Fin 2) * 512 + 1 * k.val = k.val; rw [e0]; omega
  | ⟨1, _⟩ => show win0_3.index t (1 : Fin 2) * 512 + 1 * j.val = j.val; rw [e1]; omega

/-- A vector of 512 entries laid out as one row of 512 reads, at column j, the vector's entry j. -/
theorem row_of_vec (v : S512.Idx → EReal) (i : S1x512.Idx) (j : Fin 512) (h0 : (i 0).val = 0) (h1 : (i 1).val = j.val) :
    shapeCast S1x512 v shapeCasts_S512_S1x512 i = v (ix1 j) :=
  shapeCast_apply v shapeCasts_S512_S1x512 i (ix1 j) (by
    rw [Shape.rowMajor_val_two, Shape.rowMajor_val_one]
    show j.val = (i 0).val * 512 + (i 1).val
    omega)

/-- The staged first bias is b1 as a row. -/
theorem b1blk_apply (c : Dev nD) (t : Fin cfg0.N) (j : Fin 512) :
    b1blk m c t (ix2 0 j) = m ((c : Thread nD τ).loc main_arg3) (ix1 j) := by
  obtain ⟨e0, e1⟩ := idx_b1 t
  show V m c main_call0_v2 (((cfg0.win 4).blk t).view.emb (ix2 0 j)) = _
  rw [V_b1]
  refine row_of_vec _ _ j ?_ ?_
  · show win0_4.index t (0 : Fin 2) * 1 + 1 * 0 = 0; rw [e0]
  · show win0_4.index t (1 : Fin 2) * 512 + 1 * j.val = j.val; rw [e1]; omega

/-- The staged second bias is b2 as a row. -/
theorem b2blk_apply (c : Dev nD) (t : Fin cfg0.N) (j : Fin 512) :
    b2blk m c t (ix2 0 j) = m ((c : Thread nD τ).loc main_arg5) (ix1 j) := by
  obtain ⟨e0, e1⟩ := idx_b2 t
  show V m c main_call0_v3 (((cfg0.win 5).blk t).view.emb (ix2 0 j)) = _
  rw [V_b2]
  refine row_of_vec _ _ j ?_ ?_
  · show win0_5.index t (0 : Fin 2) * 1 + 1 * 0 = 0; rw [e0]
  · show win0_5.index t (1 : Fin 2) * 512 + 1 * j.val = j.val; rw [e1]; omega

end Cert.KernelIdeal.Bridge

end
-- ==== Proof.IdealSpec.lean ====
/-
  The result as one function of the six argument arrays, entry by entry, over the extended reals.

  XW(r,j)  = ∑ₖ x(r,k) · W1(k,j)                          the first layer's support
  Hid(r,j) = max(∑ₖ adj(r,k) · XW(k,j) + b1(j), 0)          the hidden layer
  HW(r,q)  = ∑ⱼ Hid(r,j) · W2(j,q)                         the second layer's support
  Out(r,q) = ∑ₖ adj(r,k) · HW(k,q) + b2(q)                  the result

  Both programs group the products this way, so no law of the extended reals beyond reading each operation at an
  entry is needed to join them; only the tiling differs.
-/
import proofs.«179229_g29197187678275_cont_9to1_429_16_alg».proof.Proof.Gen.KernelIdeal
import Idealize.ShloMosaic.Lib.ValueIdx

set_option maxRecDepth 16384

noncomputable section

namespace Cert.KernelIdeal.Bridge

open Idealize.ShloMosaic Idealize.ShloMosaic.ValueIdx
open Cert.KernelIdeal

variable (x : S10000x512.Idx → EReal) (adj : S10000x10000.Idx → EReal) (W1 : S512x512.Idx → EReal)
  (b1 : S512.Idx → EReal) (W2 : S512x512.Idx → EReal) (b2 : S512.Idx → EReal)

/-- The first layer's support x · W1 at row r, column j. -/
def XW (r : Fin 10000) (j : Fin 512) : EReal := ∑ k : Fin 512, x (ix2 r k) * W1 (ix2 k j)

/-- The hidden layer max(adj · (x · W1) + b1, 0) at row r, column j. -/
def Hid (r : Fin 10000) (j : Fin 512) : EReal :=
  max ((∑ k : Fin 10000, adj (ix2 r k) * XW x W1 k j) + b1 (ix1 j)) 0

/-- The second layer's support Hid · W2 at row r, column q. -/
def HW (r : Fin 10000) (q : Fin 512) : EReal := ∑ j : Fin 512, Hid x adj W1 b1 r j * W2 (ix2 j q)

/-- The result adj · (Hid · W2) + b2 at row r, column q. -/
def Out (r : Fin 10000) (q : Fin 512) : EReal :=
  (∑ k : Fin 10000, adj (ix2 r k) * HW x adj W1 b1 W2 k q) + b2 (ix1 q)

/-- The result array. -/
def G : S10000x512.Idx → EReal := fun y => Out x adj W1 b1 W2 b2 (y 0) (y 1)

end Cert.KernelIdeal.Bridge

end
-- ==== Proof.IdealValue.lean ====
/-
  The kernel's result array, as the one function of the six argument arrays, at the exact values.

  The first scratch, once full, is x · W1: row r was stored at point r / 1000 from the block of x holding that row.
  The second scratch, once full, is Hid · W2: row r was stored at point 10 + r / 400 from the block of adj holding
  that row and the whole first scratch.  A point t ≥ 35 stores rows 400·(t − 35) … of the result, computed from its
  block of adj and the whole second scratch; these twenty-five blocks are written back one by one and tile the array.
-/
import proofs.«179229_g29197187678275_cont_9to1_429_16_alg».proof.Proof.KernelIdealBody
import proofs.«179229_g29197187678275_cont_9to1_429_16_alg».proof.Proof.IdealPay
import proofs.«179229_g29197187678275_cont_9to1_429_16_alg».proof.Proof.IdealBlocks
import proofs.«179229_g29197187678275_cont_9to1_429_16_alg».proof.Proof.IdealSpec

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ) (ρ : Dev nD → PrngReg)

/-! ## The two scratch buffers and the stored output block, entry by entry -/

/-- The full first scratch is x · W1. -/
theorem S1spec_apply (c : Dev nD) (r : Fin 10000) (j : Fin 512) :
    S1spec m c (ix2 r j) = XW (m ((c : Thread nD τ).loc main_arg0)) (m ((c : Thread nD τ).loc main_arg2)) r j := by
  have hr := r.isLt
  have hp : (ptFirst (ix2 r j)).val < 10 := by show r.val / 1000 < 10; omega
  unfold XW
  show k0_pay1 (xblk m c (ptFirst (ix2 r j))) (w1blk m c (ptFirst (ix2 r j)))
    (ix2 ⟨r.val % 1000, Nat.mod_lt _ (by decide)⟩ ⟨j.val, j.isLt⟩) = _
  rw [pay1_apply]
  refine Finset.sum_congr rfl fun k _ => ?_
  rw [xblk_apply m c _ hp, w1blk_apply]
  refine congrArg₂ (· * ·) (congrArg (fun r' => (m ((c : Thread nD τ).loc main_arg0)) (ix2 r' k)) (Fin.ext ?_)) rfl
  show 1000 * (r.val / 1000) + r.val % 1000 = r.val
  omega

/-- As whole arrays. -/
theorem S1spec_eq (c : Dev nD) : S1spec m c = fun y => XW (m ((c : Thread nD τ).loc main_arg0)) (m ((c : Thread nD τ).loc main_arg2)) (y 0) (y 1) :=
  funext fun y => by
    obtain ⟨r, j, rfl⟩ : ∃ (r : Fin 10000) (j : Fin 512), y = ix2 r j := ⟨y 0, y 1, eq_ix2 y⟩
    exact S1spec_apply m c r j

/-- The full second scratch is Hid · W2. -/
theorem HWspec_apply (c : Dev nD) (r : Fin 10000) (q : Fin 512) :
    HWspec m c (ix2 r q) = HW (m ((c : Thread nD τ).loc main_arg0)) (m ((c : Thread nD τ).loc main_arg1)) (m ((c : Thread nD τ).loc main_arg2)) (m ((c : Thread nD τ).loc main_arg3)) (m ((c : Thread nD τ).loc main_arg4)) r q := by
  have hr := r.isLt
  have h10 : 10 ≤ (ptSecond (ix2 r q)).val := by show 10 ≤ 10 + r.val / 400; omega
  have h35 : (ptSecond (ix2 r q)).val < 35 := by show 10 + r.val / 400 < 35; omega
  unfold HW Hid
  show k0_pay2 (ablk m c (ptSecond (ix2 r q))) (S1spec m c) (b1blk m c (ptSecond (ix2 r q))) (w2blk m c (ptSecond (ix2 r q)))
    (ix2 ⟨r.val % 400, Nat.mod_lt _ (by decide)⟩ ⟨q.val, q.isLt⟩) = _
  rw [pay2_apply]
  refine Finset.sum_congr rfl fun j _ => ?_
  rw [b1blk_apply, w2blk_apply]
  refine congrArg₂ (· * ·) (congrArg (fun s => max (s + (m ((c : Thread nD τ).loc main_arg3)) (ix1 j)) 0) (Finset.sum_congr rfl fun k _ => ?_)) rfl
  rw [ablk_apply_second m c _ h10 h35, S1spec_apply]
  refine congrArg₂ (· * ·) (congrArg (fun r' => (m ((c : Thread nD τ).loc main_arg1)) (ix2 r' k)) (Fin.ext ?_)) rfl
  show 400 * (10 + r.val / 400 - 10) + r.val % 400 = r.val
  omega

/-- As whole arrays. -/
theorem HWspec_eq (c : Dev nD) : HWspec m c = fun y => HW (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) :=
  funext fun y => by
    obtain ⟨r, q, rfl⟩ : ∃ (r : Fin 10000) (q : Fin 512), y = ix2 r q := ⟨y 0, y 1, eq_ix2 y⟩
    exact HWspec_apply m c r q

/-- A point t ≥ 35 stores rows 400·(t − 35) … of the result. -/
theorem outAt_apply (c : Dev nD) (t : Fin cfg0.N) (h35 : 35 ≤ t.val) (p : Fin 400) (q : Fin 512) :
    outAt m c t (ix2 p q) = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ⟨400 * (t.val - 35) + p.val, by have : t.val < 60 := lt_of_lt_of_eq t.isLt N_0; omega⟩ q := by
  unfold outAt Out
  rw [pay3_apply, b2blk_apply]
  refine congrArg (· + (m ((c : Thread nD τ).loc main_arg5)) (ix1 q)) (Finset.sum_congr rfl fun k _ => ?_)
  rw [ablk_apply_third m c t h35, HWspec_apply]

/-- The same at any entry of the block, by its coordinates. -/
theorem outAt_apply' (c : Dev nD) (t : Fin cfg0.N) (h35 : 35 ≤ t.val) (y : S400x512.Idx) :
    outAt m c t y = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ⟨400 * (t.val - 35) + (y 0).val, by have : t.val < 60 := lt_of_lt_of_eq t.isLt N_0; have := idx2_lt0 y; omega⟩
      ⟨(y 1).val, idx2_lt1 y⟩ := by
  obtain ⟨p, q, rfl⟩ : ∃ (p : Fin 400) (q : Fin 512), y = ix2 p q := ⟨y 0, y 1, eq_ix2 y⟩
  exact outAt_apply m c t h35 p q

/-! ## From the stored blocks to the array -/

theorem flush_out : ∀ t : Fin cfg0.N, 35 ≤ t.val → (cfg0.win 6).flush t = true := by decide +kernel
theorem idx_out : ∀ t : Fin cfg0.N, (35 ≤ t.val → win0_6.index t (0 : Fin 2) = t.val - 35) ∧ win0_6.index t (1 : Fin 2) = 0 :=
  (by decide +kernel : ∀ t : Fin grid0.N, (35 ≤ t.val → win0_6.index t (0 : Fin 2) = t.val - 35) ∧ win0_6.index t (1 : Fin 2) = 0)

/-- What a point writes back is its block of the result. -/
theorem flushed_eq (c : Dev nD) (t : Fin cfg0.N) (hf : (cfg0.win 6).flush t = true) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h35 : 35 ≤ t.val := by
    by_contra h
    rw [noFlush6 t (by omega)] at hf
    exact Bool.false_ne_true hf
  obtain ⟨e0, e1⟩ := idx_out t
  show (cfg0.win 6).cut (grid0.coords t) ((dats m 0 c).after 6 t) = _
  rw [after6]
  funext j
  rw [View.read_apply]
  refine (outAt_apply' m c t h35 _).trans ?_
  unfold G
  refine congrArg₂ (Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 400 * (t.val - 35) + (j 0).val = win0_6.index t (0 : Fin 2) * 400 + 1 * (j 0).val
    rw [e0 h35]; omega
  · show (j 1).val = win0_6.index t (1 : Fin 2) * 512 + 1 * (j 1).val
    rw [e1]; omega

/-- An entry of the array is in point t's block iff each coordinate is in the block's range on its axis. -/
theorem mem_blk_out (t : Fin cfg0.N) (i : S10000x512.Idx) :
    i ∈ ((cfg0.win 6).blk t).view.set ↔ ∀ a : Fin 2, win0_6.index t a * S400x512.size a ≤ (i a).val
      ∧ (i a).val < win0_6.index t a * S400x512.size a + S400x512.size a := by
  show i ∈ ((View.whole main_v0).slice (win0_6.rect t)).set ↔ _
  rw [View.set_slice_whole, Rect.mem_set_unit]
  exact Iff.rfl

/-- The result array after the run: row r is covered by the block written back at point 35 + r / 400. -/
theorem final (c : Dev nD) : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t hf => flushed_eq m c t hf) fun i => by
    have hi0 : (i 0).val < 10000 := (i 0).isLt
    have hi1 : (i 1).val < 512 := (i 1).isLt
    have hN : cfg0.N = 60 := N_0
    have h35 : 35 ≤ 35 + (i 0).val / 400 := Nat.le_add_right _ _
    obtain ⟨e0, e1⟩ := idx_out ⟨35 + (i 0).val / 400, by omega⟩
    refine ⟨⟨35 + (i 0).val / 400, by omega⟩, flush_out _ h35, ?_⟩
    rw [mem_blk_out]
    intro a
    match a with
    | ⟨0, _⟩ =>
      show win0_6.index ⟨35 + (i 0).val / 400, _⟩ (0 : Fin 2) * 400 ≤ (i 0).val
        ∧ (i 0).val < win0_6.index ⟨35 + (i 0).val / 400, _⟩ (0 : Fin 2) * 400 + 400
      rw [e0 h35]
      show (35 + (i 0).val / 400 - 35) * 400 ≤ (i 0).val ∧ (i 0).val < (35 + (i 0).val / 400 - 35) * 400 + 400
      omega
    | ⟨1, _⟩ =>
      show win0_6.index ⟨35 + (i 0).val / 400, _⟩ (1 : Fin 2) * 512 ≤ (i 1).val
        ∧ (i 1).val < win0_6.index ⟨35 + (i 0).val / 400, _⟩ (1 : Fin 2) * 512 + 512
      rw [e1]
      omega

/-! ## The run, read -/

/-- Every weakly fair execution ends with the result array at the one function of the arguments, the six
    argument arrays unchanged. -/
theorem run : θ_run defs (onTc (τ := τ) (main (F := Ideal))) ⟨m, fun _ => 0, ρ⟩ (fun r => ∀ c : Dev nD,
      r.2.mem ((c.tc : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Bridge

end
-- ==== Proof.RefIsG.lean ====
/-
  The reference's result is the same one function of the six argument arrays.

  Stage by stage, at row r and column j: the first product is x · W1; the second is adj times it; adding the first
  bias along rows and clipping below at zero gives the hidden layer; the third product is the hidden layer times W2;
  the fourth is adj times that; adding the second bias along rows gives the result.  Each host product is the plain
  sum over its contracted axis, each spread of a bias reads the bias at the column, and the zero constant is 0.
-/
import proofs.«179229_g29197187678275_cont_9to1_429_16_alg».proof.Proof.Gen.ReferenceIdeal.Run
import proofs.«179229_g29197187678275_cont_9to1_429_16_alg».proof.Proof.Gen.ReferenceIdeal.Read
import proofs.«179229_g29197187678275_cont_9to1_429_16_alg».proof.Proof.IdealSpec

set_option maxRecDepth 16384

noncomputable section

namespace Cert.RefBridge

open Idealize.ShloMosaic Idealize.ShloMosaic.ValueIdx
open Cert.ReferenceIdeal Cert.ReferenceIdeal.Gen Cert.ReferenceIdeal.Read
open Cert.KernelIdeal.Bridge (XW Hid HW Out G)

variable (x : S10000x512.Idx → EReal) (adj : S10000x10000.Idx → EReal) (W1 : S512x512.Idx → EReal)
  (b1 : S512.Idx → EReal) (W2 : S512x512.Idx → EReal) (b2 : S512.Idx → EReal)

/-- A bias spread first to one row and then over all rows reads, at column j, the bias at j. -/
theorem bias_idx (r : Fin 10000) (j : Fin 512) : idx_main_v2 (idx_main_v3 (ix2 r j)) = ix1 j :=
  funext fun a => Fin.ext (by
    match a with
    | ⟨0, _⟩ => rfl)

/-- The first product is x · W1. -/
theorem v0_apply (r : Fin 10000) (j : Fin 512) : val_main_v0 (F := Ideal) x W1 (ix2 r j) = XW x W1 r j := by
  rw [val_main_v0_apply]
  unfold XW
  refine Finset.sum_congr rfl fun k _ => ?_
  have el : lidx_main_v0 (ix2 r j) k = ix2 r k := funext fun a => Fin.ext (by
    match a with
    | ⟨0, _⟩ => rfl
    | ⟨1, _⟩ => rfl)
  have er : ridx_main_v0 (ix2 r j) k = ix2 k j := funext fun a => Fin.ext (by
    match a with
    | ⟨0, _⟩ => rfl
    | ⟨1, _⟩ => rfl)
  rw [el, er]

/-- The second product is adj · (x · W1). -/
theorem v1_apply (r : Fin 10000) (j : Fin 512) :
    val_main_v1 (F := Ideal) x adj W1 (ix2 r j) = ∑ k : Fin 10000, adj (ix2 r k) * XW x W1 k j := by
  rw [val_main_v1_apply]
  refine Finset.sum_congr rfl fun k _ => ?_
  have el : lidx_main_v1 (ix2 r j) k = ix2 r k := funext fun a => Fin.ext (by
    match a with
    | ⟨0, _⟩ => rfl
    | ⟨1, _⟩ => rfl)
  have er : ridx_main_v1 (ix2 r j) k = ix2 k j := funext fun a => Fin.ext (by
    match a with
    | ⟨0, _⟩ => rfl
    | ⟨1, _⟩ => rfl)
  rw [el, er, v0_apply]

/-- After the bias and the clip at zero: the hidden layer. -/
theorem v5_apply (r : Fin 10000) (j : Fin 512) :
    val_main_v5 (F := Ideal) x adj W1 b1 (ix2 r j) = Hid x adj W1 b1 r j := by
  rw [val_main_v5_apply, val_main_v4_apply, v1_apply, val_main_v3_apply, val_main_v2_apply, val_main_call0_v0_apply,
    val_main_call0_cst_apply, bias_idx]
  unfold Hid
  show max ((∑ k : Fin 10000, adj (ix2 r k) * XW x W1 k j) + b1 (ix1 j)) (Ideal.ofBits .f32 0x00000000#32) = _
  rw [Ideal.ofBits_zero_f32]

/-- The third product is the hidden layer times W2. -/
theorem v6_apply (r : Fin 10000) (q : Fin 512) :
    val_main_v6 (F := Ideal) x adj W1 b1 W2 (ix2 r q) = HW x adj W1 b1 W2 r q := by
  rw [val_main_v6_apply]
  unfold HW
  refine Finset.sum_congr rfl fun k _ => ?_
  have el : lidx_main_v6 (ix2 r q) k = ix2 r k := funext fun a => Fin.ext (by
    match a with
    | ⟨0, _⟩ => rfl
    | ⟨1, _⟩ => rfl)
  have er : ridx_main_v6 (ix2 r q) k = ix2 k q := funext fun a => Fin.ext (by
    match a with
    | ⟨0, _⟩ => rfl
    | ⟨1, _⟩ => rfl)
  rw [el, er, v5_apply]

/-- The last stage: adj times the third product, plus the second bias. -/
theorem v10_apply (r : Fin 10000) (q : Fin 512) :
    val_main_v10 (F := Ideal) x adj W1 b1 W2 b2 (ix2 r q) = Out x adj W1 b1 W2 b2 r q := by
  rw [val_main_v10_apply, val_main_v7_apply, val_main_v9_apply, val_main_v8_apply]
  unfold Out
  have eb : idx_main_v8 (idx_main_v9 (ix2 r q)) = ix1 q := funext fun a => Fin.ext (by
    match a with
    | ⟨0, _⟩ => rfl)
  rw [eb]
  refine congrArg (· + b2 (ix1 q)) (Finset.sum_congr rfl fun k _ => ?_)
  have el : lidx_main_v7 (ix2 r q) k = ix2 r k := funext fun a => Fin.ext (by
    match a with
    | ⟨0, _⟩ => rfl
    | ⟨1, _⟩ => rfl)
  have er : ridx_main_v7 (ix2 r q) k = ix2 k q := funext fun a => Fin.ext (by
    match a with
    | ⟨0, _⟩ => rfl
    | ⟨1, _⟩ => rfl)
  rw [el, er, v6_apply]

/-- The reference's result array is the specification's. -/
theorem ref_eq : val_main_v10 (F := Ideal) x adj W1 b1 W2 b2 = G x adj W1 b1 W2 b2 :=
  funext fun i => by
    obtain ⟨r, q, rfl⟩ : ∃ (r : Fin 10000) (q : Fin 512), i = ix2 r q := ⟨i 0, i 1, eq_ix2 i⟩
    exact v10_apply x adj W1 b1 W2 b2 r q

end Cert.RefBridge

end
-- ==== Proof.lean ====
/-
  A two-layer graph convolution over a dense 10000 × 10000 adjacency matrix:

      out = adj · (max(adj · (x · W1) + b1, 0) · W2) + b2.

  The kernel computes it in sixty steps of one grid axis.  Steps 0–9 fill a first scratch array with x · W1, a
  thousand rows at a time.  Steps 10–34 fill a second scratch array with max(adj · S1 + b1, 0) · W2, four hundred
  rows at a time, each from a 400-row block of adj and the whole first scratch.  Steps 35–59 write the result,
  four hundred rows at a time, each from a 400-row block of adj and the whole second scratch.  The reference is the
  same expression as four whole matrix products.

  At the exact values both sides group the products the same way, the narrowings to the 16-bit format are the
  identity, and a matrix product is the plain sum over the contracted axis, so the two results agree entry by entry
  with no appeal to finiteness of the inputs: only the tiling has to be undone.  The frames of the two kernels are
  the pipeline's run with the body's three cases proved point by point; the reference's frame is its run.
-/
import proofs.«179229_g29197187678275_cont_9to1_429_16_alg».proof.Defs
import proofs.«179229_g29197187678275_cont_9to1_429_16_alg».proof.Proof.Gen.Kernel
import proofs.«179229_g29197187678275_cont_9to1_429_16_alg».proof.Proof.Gen.KernelIdeal
import proofs.«179229_g29197187678275_cont_9to1_429_16_alg».proof.Proof.Gen.ReferenceIdeal
import proofs.«179229_g29197187678275_cont_9to1_429_16_alg».proof.Proof.Gen.Pre_finite_inputs
import proofs.«179229_g29197187678275_cont_9to1_429_16_alg».proof.Proof.KernelBody
import proofs.«179229_g29197187678275_cont_9to1_429_16_alg».proof.Proof.IdealValue
import proofs.«179229_g29197187678275_cont_9to1_429_16_alg».proof.Proof.RefIsG
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does the kernel at the exact values. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories agreeing on the six arguments, both programs end with the result array at the one function of
    the arguments: the kernel by undoing its tiling, the reference stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v10_eq (F := Ideal) _ _ _ _ _ _).trans (Cert.RefBridge.ref_eq _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
